-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x20 : Shape := ⟨2, ![512, 20]⟩
abbrev S20x128 : Shape := ⟨2, ![20, 128]⟩
abbrev S128 : Shape := ⟨1, ![128]⟩
abbrev S128x20 : Shape := ⟨2, ![128, 20]⟩
abbrev S20 : Shape := ⟨1, ![20]⟩
abbrev S20x512 : Shape := ⟨2, ![20, 512]⟩
abbrev S52x1 : Shape := ⟨2, ![52, 1]⟩
abbrev S1 : Shape := ⟨1, ![1]⟩
abbrev S_ : Shape := ⟨0, ![]⟩

class Facts : Prop where
  bcast_S_S512x20 : S_.BroadcastsInDim S512x20 (![] : Fin 0 → Fin S512x20.rank)
  reducesTo_S512x20_S_d0_1 : S512x20.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S20x512 : S_.BroadcastsInDim S20x512 (![] : Fin 0 → Fin S20x512.rank)
  reducesTo_S20x512_S_d0_1 : S20x512.ReducesTo [0, 1] S_
  bcast_S_S52x1 : S_.BroadcastsInDim S52x1 (![] : Fin 0 → Fin S52x1.rank)
  reducesTo_S52x1_S_d0_1 : S52x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S20 .f32) (main_arg5 : FVec F S20x512 .f32) (main_arg6 : FVec F S52x1 .f32) (main_arg7 : FVec F S1 .f32) (main_v13 : IVec S_ 1) (main_v16 : IVec S128x20 1) : IVec S_ 1 :=
  let main_c_5 : IVec S_ 1 := constantI S_ 1 1#1
  let main_v17 : IVec S_ 1 := (fun x v => Host.reduce IntOp.andi x v reducesTo_S128x20_S_d0_1 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x512 .f32 := Host.absf main_arg5
  let main_cst_8 : FVec F S_ .f32 := constant S_ .f32 0x7F800000#32
  let main_v25 : FVec F S20x512 .f32 := broadcastInDim S20x512 ![] bcast_S_S20x512 main_cst_8
  let main_v26 : IVec S20x512 1 := cmpf .olt main_v24 main_v25
  let main_c_9 : IVec S_ 1 := constantI S_ 1 1#1
  let main_v27 : IVec S_ 1 := (fun x v => Host.reduce IntOp.andi x v reducesTo_S20x512_S_d0_1 h_S_) main_v26 main_c_9
  let main_v28 : IVec S_ 1 := andi main_v23 main_v27
  let main_v29 : FVec F S52x1 .f32 := Host.absf main_arg6
  let main_cst_10 : FVec F S_ .f32 := constant S_ .f32 0x7F800000#32
  let main_v30 : FVec F S52x1 .f32 := broadcastInDim S52x1 ![] bcast_S_S52x1 main_cst_10
  let main_v31 : IVec S52x1 1 := cmpf .olt main_v29 main_v30
  let main_c_11 : IVec S_ 1 := constantI S_ 1 1#1
  let main_v32 : IVec S_ 1 := (fun x v => Host.reduce IntOp.andi x v reducesTo_S52x1_S_d0_1 h_S_) main_v31 main_c_11
  let main_v33 : IVec S_ 1 := andi main_v28 main_v32
  fn_part2 (F := F) main_arg7 main_v33

def fn {F : FTy → Type} [FloatOps F] (main_arg0 : FVec F S512x20 .f32) (main_arg1 : FVec F S20x128 .f32) (main_arg2 : FVec F S128 .f32) (main_arg3 : FVec F S128x20 .f32) (main_arg4 : FVec F S20 .f32) (main_arg5 : FVec F S20x512 .f32) (main_arg6 : FVec F S52x1 .f32) (main_arg7 : FVec F S1 .f32) : IVec S_ 1 :=
  let main_v0 : FVec F S512x20 .f32 := Host.absf main_arg0
  let main_cst : FVec F S_ .f32 := constant S_ .f32 0x7F800000#32
  let main_v1 : FVec F S512x20 .f32 := broadcastInDim S512x20 ![] bcast_S_S512x20 main_cst
  let main_v2 : IVec S512x20 1 := cmpf .olt main_v0 main_v1
  let main_c : IVec S_ 1 := constantI S_ 1 1#1
  let main_v3 : IVec S_ 1 := (fun x v => Host.reduce IntOp.andi x v reducesTo_S512x20_S_d0_1 h_S_) main_v2 main_c
  let main_v4 : FVec F S20x128 .f32 := Host.absf main_arg1
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x20 .f32 := Host.absf main_arg3
  let main_cst_4 : FVec F S_ .f32 := constant S_ .f32 0x7F800000#32
  let main_v15 : FVec F S128x20 .f32 := broadcastInDim S128x20 ![] bcast_S_S128x20 main_cst_4
  let main_v16 : IVec S128x20 1 := cmpf .olt main_v14 main_v15
  fn_part1 (F := F) main_arg4 main_arg5 main_arg6 main_arg7 main_v13 main_v16
-- ==== Kernel.lean ====
abbrev S512x20 : Shape := ⟨2, ![512, 20]⟩
abbrev S20x128 : Shape := ⟨2, ![20, 128]⟩
abbrev S128 : Shape := ⟨1, ![128]⟩
abbrev S128x20 : Shape := ⟨2, ![128, 20]⟩
abbrev S20 : Shape := ⟨1, ![20]⟩
abbrev S20x512 : Shape := ⟨2, ![20, 512]⟩
abbrev S52x1 : Shape := ⟨2, ![52, 1]⟩
abbrev S1 : Shape := ⟨1, ![1]⟩
abbrev S512x128 : Shape := ⟨2, ![512, 128]⟩
abbrev S1x128 : Shape := ⟨2, ![1, 128]⟩
abbrev S_ : Shape := ⟨0, ![]⟩
abbrev S1x20 : Shape := ⟨2, ![1, 20]⟩
abbrev S512x512 : Shape := ⟨2, ![512, 512]⟩
abbrev S512x32x16 : Shape := ⟨3, ![512, 32, 16]⟩
abbrev S512x32 : Shape := ⟨2, ![512, 32]⟩
abbrev S128x32x16 : Shape := ⟨3, ![128, 32, 16]⟩
abbrev S128x32 : Shape := ⟨2, ![128, 32]⟩
abbrev S128x128x32 : Shape := ⟨3, ![128, 128, 32]⟩
abbrev S128x32x1 : Shape := ⟨3, ![128, 32, 1]⟩
abbrev S128x1x32 : Shape := ⟨3, ![128, 1, 32]⟩
abbrev S1x128x32 : Shape := ⟨3, ![1, 128, 32]⟩
abbrev S512x52 : Shape := ⟨2, ![512, 52]⟩
abbrev S512x1 : Shape := ⟨2, ![512, 1]⟩
abbrev S1x1 : Shape := ⟨2, ![1, 1]⟩

abbrev nBuf : Space → Nat
  | .hbm => 44
  | .vmem => 7
  | .smem => 0
  | _ => 0

abbrev bufTy : (tb : Table) → Fin (tcTables nBuf tb) → BufTy
  | .hbm, ⟨0, _⟩ => ⟨S512x20, .f32⟩
  | .hbm, ⟨1, _⟩ => ⟨S20x128, .f32⟩
  | .hbm, ⟨2, _⟩ => ⟨S128, .f32⟩
  | .hbm, ⟨3, _⟩ => ⟨S128x20, .f32⟩
  | .hbm, ⟨4, _⟩ => ⟨S20, .f32⟩
  | .hbm, ⟨5, _⟩ => ⟨S20x512, .f32⟩
  | .hbm, ⟨6, _⟩ => ⟨S52x1, .f32⟩
  | .hbm, ⟨7, _⟩ => ⟨S1, .f32⟩
  | .hbm, ⟨8, _⟩ => ⟨S512x128, .f32⟩
  | .hbm, ⟨9, _⟩ => ⟨S1x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x20, .f32⟩
  | .hbm, ⟨16, _⟩ => ⟨S1x20, .f32⟩
  | .hbm, ⟨17, _⟩ => ⟨S512x20, .f32⟩
  | .hbm, ⟨18, _⟩ => ⟨S512x20, .f32⟩
  | .hbm, ⟨19, _⟩ => ⟨S_, .f32⟩
  | .hbm, ⟨20, _⟩ => ⟨S512x20, .f32⟩
  | .hbm, ⟨21, _⟩ => ⟨S512x20, .f32⟩
  | .hbm, ⟨22, _⟩ => ⟨S512x512, .f32⟩
  | .hbm, ⟨23, _⟩ => ⟨S512x32x16, .f32⟩
  | .hbm, ⟨24, _⟩ => ⟨S512x32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S512x32, .f32⟩
  | .hbm, ⟨30, _⟩ => ⟨S512x32, .f32⟩
  | .hbm, ⟨31, _⟩ => ⟨S512x52, .f32⟩
  | .hbm, ⟨32, _⟩ => ⟨S512x1, .f32⟩
  | .hbm, ⟨33, _⟩ => ⟨S1x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .f32⟩
  | .hbm, ⟨42, _⟩ => ⟨S512x1, .f32⟩
  | .hbm, ⟨43, _⟩ => ⟨S512x1, .f32⟩
  | .local _ .vmem, ⟨0, _⟩ => ⟨S128x32x16, .f32⟩
  | .local _ .vmem, ⟨1, _⟩ => ⟨S128x32x16, .f32⟩
  | .local _ .vmem, ⟨2, _⟩ => ⟨S128x32x16, .f32⟩
  | .local _ .vmem, ⟨3, _⟩ => ⟨S128x32x16, .f32⟩
  | .local _ .vmem, ⟨4, _⟩ => ⟨S128x32, .f32⟩
  | .local _ .vmem, ⟨5, _⟩ => ⟨S128x32, .f32⟩
  | .local _ .vmem, ⟨6, _⟩ => ⟨S128x32, .f32⟩
  | _, _ => ⟨S512x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v193 : BitVec 1 := Scalar.cmpi .eq arg1 c3_i32
  let v194 : BitVec 32 := Scalar.extui v193
  let c0_i32_12 : BitVec 32 := 0#32
  let v195 : BitVec 1 := Scalar.cmpi .ne v194 c0_i32_12
  v195

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S20_S1x20_1 : S20.BroadcastsInDim S1x20 (![1] : Fin 1 → Fin S1x20.rank)
  bcast_S1x20_S512x20_0_1 : S1x20.BroadcastsInDim S512x20 (![0, 1] : Fin 2 → Fin S512x20.rank)
  bcast_S_S512x20 : S_.BroadcastsInDim S512x20 (![] : Fin 0 → Fin S512x20.rank)
  shapeCasts_S512x512_S512x32x16 : S512x512.ShapeCasts S512x32x16
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x32x16_S128x32x16_0_0_0 : ∀ a, (![0, 0, 0] : Fin 3 → Nat) a + S128x32x16.size a ≤ S128x32x16.size a
  h_S128x32x16 : 0 < S128x32x16.numel
  shapeCasts_S128x32x16_S128x32x16 : S128x32x16.ShapeCasts S128x32x16
  slices_S128x32x16_o0_0_0_S128x32x1 : S128x32x16.Slices ![0, 0, 0] S128x32x1
  shapeCasts_S128x32x1_S128x32 : S128x32x1.ShapeCasts S128x32
  shapeCasts_S128x32_S128x1x32 : S128x32.ShapeCasts S128x1x32
  shapeCasts_S128x32_S1x128x32 : S128x32.ShapeCasts S1x128x32
  broadcasts_S128x1x32_S128x128x32 : S128x1x32.Broadcasts S128x128x32
  broadcasts_S1x128x32_S128x128x32 : S1x128x32.Broadcasts S128x128x32
  slices_S128x32x16_o0_0_1_S128x32x1 : S128x32x16.Slices ![0, 0, 1] S128x32x1
  slices_S128x32x16_o0_0_2_S128x32x1 : S128x32x16.Slices ![0, 0, 2] S128x32x1
  slices_S128x32x16_o0_0_3_S128x32x1 : S128x32x16.Slices ![0, 0, 3] S128x32x1
  slices_S128x32x16_o0_0_4_S128x32x1 : S128x32x16.Slices ![0, 0, 4] S128x32x1
  slices_S128x32x16_o0_0_5_S128x32x1 : S128x32x16.Slices ![0, 0, 5] S128x32x1
  slices_S128x32x16_o0_0_6_S128x32x1 : S128x32x16.Slices ![0, 0, 6] S128x32x1
  slices_S128x32x16_o0_0_7_S128x32x1 : S128x32x16.Slices ![0, 0, 7] S128x32x1
  slices_S128x32x16_o0_0_8_S128x32x1 : S128x32x16.Slices ![0, 0, 8] S128x32x1
  slices_S128x32x16_o0_0_9_S128x32x1 : S128x32x16.Slices ![0, 0, 9] S128x32x1
  slices_S128x32x16_o0_0_10_S128x32x1 : S128x32x16.Slices ![0, 0, 10] S128x32x1
  slices_S128x32x16_o0_0_11_S128x32x1 : S128x32x16.Slices ![0, 0, 11] S128x32x1
  slices_S128x32x16_o0_0_12_S128x32x1 : S128x32x16.Slices ![0, 0, 12] S128x32x1
  slices_S128x32x16_o0_0_13_S128x32x1 : S128x32x16.Slices ![0, 0, 13] S128x32x1
  slices_S128x32x16_o0_0_14_S128x32x1 : S128x32x16.Slices ![0, 0, 14] S128x32x1
  slices_S128x32x16_o0_0_15_S128x32x1 : S128x32x16.Slices ![0, 0, 15] S128x32x1
  reduces_S128x128x32_S128x32 : S128x128x32.Reduces [1] S128x32
  reducesTo_S512x32_S_d0_1 : S512x32.ReducesTo [0, 1] S_
  h_S_ : 0 < S_.numel
  bcast_S_S512x32 : S_.BroadcastsInDim S512x32 (![] : Fin 0 → Fin S512x32.rank)
  concatenates_S512x20_S512x32_S512x52_d1 : Shape.Concatenates [S512x20, S512x32] S512x52 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S512x20_S20x128_S512x128_1_0_0_1_n_n_wf : DotDims.WF S512x20 S20x128 S512x128 [1] [0] [0] [1] [] []
  dot_S512x128_S128x20_S512x20_1_0_0_1_n_n_wf : DotDims.WF S512x128 S128x20 S512x20 [1] [0] [0] [1] [] []
  dot_S512x20_S20x512_S512x512_1_0_0_1_n_n_wf : DotDims.WF S512x20 S20x512 S512x512 [1] [0] [0] [1] [] []
  dot_S512x52_S52x1_S512x1_1_0_0_1_n_n_wf : DotDims.WF S512x52 S52x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x16.size a ≤ S512x32x16.size a
  hwx0_0 : ∀ i : grid0.Coords, EltTy.bits .f32 = 32 ∨ (Rect.block (s := S512x32x16) S128x32x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x16.size a ≤ S512x32x16.size a
  hwx0_1 : ∀ i : grid0.Coords, EltTy.bits .f32 = 32 ∨ (Rect.block (s := S512x32x16) S128x32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S512x32.size a
  hwx0_2 : ∀ i : grid0.Coords, EltTy.bits .f32 = 32 ∨ (Rect.block (s := S512x32) S128x32.size (cc0_transform_2 i) (hinb0_2 i)).WholeWords (EltTy.packing .f32)

variable [Facts₀]

def dot_S512x20_S20x128_S512x128_1_0_0_1_n_n : DotDims S512x20 S20x128 S512x128 where
  lhsContracting := [1]
  rhsContracting := [0]
  lhsNonContracting := [0]
  rhsNonContracting := [1]
  lhsBatch := []
  rhsBatch := []
  wf := dot_S512x20_S20x128_S512x128_1_0_0_1_n_n_wf
def dot_S512x128_S128x20_S512x20_1_0_0_1_n_n : DotDims S512x128 S128x20 S512x20 where
  lhsContracting := [1]
  rhsContracting := [0]
  lhsNonContracting := [0]
  rhsNonContracting := [1]
  lhsBatch := []
  rhsBatch := []
  wf := dot_S512x128_S128x20_S512x20_1_0_0_1_n_n_wf
def dot_S512x20_S20x512_S512x512_1_0_0_1_n_n : DotDims S512x20 S20x512 S512x512 where
  lhsContracting := [1]
  rhsContracting := [0]
  lhsNonContracting := [0]
  rhsNonContracting := [1]
  lhsBatch := []
  rhsBatch := []
  wf := dot_S512x20_S20x512_S512x512_1_0_0_1_n_n_wf
def dot_S512x52_S52x1_S512x1_1_0_0_1_n_n : DotDims S512x52 S52x1 S512x1 where
  lhsContracting := [1]
  rhsContracting := [0]
  lhsNonContracting := [0]
  rhsNonContracting := [1]
  lhsBatch := []
  rhsBatch := []
  wf := dot_S512x52_S52x1_S512x1_1_0_0_1_n_n_wf

abbrev win0_0 : Pipeline.Window sig grid0 :=
  Pipeline.Window.ofSpec (Memref.whole main_v11) S128x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x20 : Shape := ⟨2, ![512, 20]⟩
abbrev S20x128 : Shape := ⟨2, ![20, 128]⟩
abbrev S128 : Shape := ⟨1, ![128]⟩
abbrev S128x20 : Shape := ⟨2, ![128, 20]⟩
abbrev S20 : Shape := ⟨1, ![20]⟩
abbrev S20x512 : Shape := ⟨2, ![20, 512]⟩
abbrev S52x1 : Shape := ⟨2, ![52, 1]⟩
abbrev S1 : Shape := ⟨1, ![1]⟩
abbrev S512x128 : Shape := ⟨2, ![512, 128]⟩
abbrev S1x128 : Shape := ⟨2, ![1, 128]⟩
abbrev S_ : Shape := ⟨0, ![]⟩
abbrev S1x20 : Shape := ⟨2, ![1, 20]⟩
abbrev S512x512 : Shape := ⟨2, ![512, 512]⟩
abbrev S512x32x16 : Shape := ⟨3, ![512, 32, 16]⟩
abbrev S512x32x16x1 : Shape := ⟨4, ![512, 32, 16, 1]⟩
abbrev S32x16x512 : Shape := ⟨3, ![32, 16, 512]⟩
abbrev S1x32x16x512 : Shape := ⟨4, ![1, 32, 16, 512]⟩
abbrev S512x32x16x512 : Shape := ⟨4, ![512, 32, 16, 512]⟩
abbrev S512x32x512 : Shape := ⟨3, ![512, 32, 512]⟩
abbrev S512x32 : Shape := ⟨2, ![512, 32]⟩
abbrev S512x52 : Shape := ⟨2, ![512, 52]⟩
abbrev S512x1 : Shape := ⟨2, ![512, 1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S512x20, .f32⟩
  | .hbm, ⟨1, _⟩ => ⟨S20x128, .f32⟩
  | .hbm, ⟨2, _⟩ => ⟨S128, .f32⟩
  | .hbm, ⟨3, _⟩ => ⟨S128x20, .f32⟩
  | .hbm, ⟨4, _⟩ => ⟨S20, .f32⟩
  | .hbm, ⟨5, _⟩ => ⟨S20x512, .f32⟩
  | .hbm, ⟨6, _⟩ => ⟨S52x1, .f32⟩
  | .hbm, ⟨7, _⟩ => ⟨S1, .f32⟩
  | .hbm, ⟨8, _⟩ => ⟨S512x128, .f32⟩
  | .hbm, ⟨9, _⟩ => ⟨S1x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x20, .f32⟩
  | .hbm, ⟨16, _⟩ => ⟨S1x20, .f32⟩
  | .hbm, ⟨17, _⟩ => ⟨S512x20, .f32⟩
  | .hbm, ⟨18, _⟩ => ⟨S512x20, .f32⟩
  | .hbm, ⟨19, _⟩ => ⟨S_, .f32⟩
  | .hbm, ⟨20, _⟩ => ⟨S512x20, .f32⟩
  | .hbm, ⟨21, _⟩ => ⟨S512x20, .f32⟩
  | .hbm, ⟨22, _⟩ => ⟨S512x512, .f32⟩
  | .hbm, ⟨23, _⟩ => ⟨S512x32x16, .f32⟩
  | .hbm, ⟨24, _⟩ => ⟨S512x32x16x1, .f32⟩
  | .hbm, ⟨25, _⟩ => ⟨S32x16x512, .f32⟩
  | .hbm, ⟨26, _⟩ => ⟨S1x32x16x512, .f32⟩
  | .hbm, ⟨27, _⟩ => ⟨S512x32x16x512, .f32⟩
  | .hbm, ⟨28, _⟩ => ⟨S512x32x16x512, .f32⟩
  | .hbm, ⟨29, _⟩ => ⟨S512x32x16x512, .f32⟩
  | .hbm, ⟨30, _⟩ => ⟨S512x32x16x512, .f32⟩
  | .hbm, ⟨31, _⟩ => ⟨S_, .f32⟩
  | .hbm, ⟨32, _⟩ => ⟨S512x32x512, .f32⟩
  | .hbm, ⟨33, _⟩ => ⟨S512x32x512, .f32⟩
  | .hbm, ⟨34, _⟩ => ⟨S512x32x512, .f32⟩
  | .hbm, ⟨35, _⟩ => ⟨S_, .f32⟩
  | .hbm, ⟨36, _⟩ => ⟨S512x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S512x32, .f32⟩
  | .hbm, ⟨42, _⟩ => ⟨S512x32, .f32⟩
  | .hbm, ⟨43, _⟩ => ⟨S512x52, .f32⟩
  | .hbm, ⟨44, _⟩ => ⟨S512x1, .f32⟩
  | .hbm, ⟨45, _⟩ => ⟨S1x1, .f32⟩
  | .hbm, ⟨46, _⟩ => ⟨S512x1, .f32⟩
  | .hbm, ⟨47, _⟩ => ⟨S512x1, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | _, _ => ⟨S512x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S20_S1x20_1 : S20.BroadcastsInDim S1x20 (![1] : Fin 1 → Fin S1x20.rank)
  bcast_S1x20_S512x20_0_1 : S1x20.BroadcastsInDim S512x20 (![0, 1] : Fin 2 → Fin S512x20.rank)
  bcast_S_S512x20 : S_.BroadcastsInDim S512x20 (![] : Fin 0 → Fin S512x20.rank)
  shapeCasts_S512x512_S512x32x16 : S512x512.ShapeCasts S512x32x16
  bcast_S512x32x16_S512x32x16x1_0_1_2 : S512x32x16.BroadcastsInDim S512x32x16x1 (![0, 1, 2] : Fin 3 → Fin S512x32x16x1.rank)
  transposes_S512x32x16_S32x16x512_1_2_0 : S512x32x16.Transposes [1, 2, 0] S32x16x512
  bcast_S32x16x512_S1x32x16x512_1_2_3 : S32x16x512.BroadcastsInDim S1x32x16x512 (![1, 2, 3] : Fin 3 → Fin S1x32x16x512.rank)
  bcast_S512x32x16x1_S512x32x16x512_0_1_2_3 : S512x32x16x1.BroadcastsInDim S512x32x16x512 (![0, 1, 2, 3] : Fin 4 → Fin S512x32x16x512.rank)
  bcast_S1x32x16x512_S512x32x16x512_0_1_2_3 : S1x32x16x512.BroadcastsInDim S512x32x16x512 (![0, 1, 2, 3] : Fin 4 → Fin S512x32x16x512.rank)
  reducesTo_S512x32x16x512_S512x32x512_d2 : S512x32x16x512.ReducesTo [2] S512x32x512
  h_S_ : 0 < S_.numel
  reducesTo_S512x32x512_S512x32_d2 : S512x32x512.ReducesTo [2] S512x32
  reducesTo_S512x32_S_d0_1 : S512x32.ReducesTo [0, 1] S_
  bcast_S_S512x32 : S_.BroadcastsInDim S512x32 (![] : Fin 0 → Fin S512x32.rank)
  concatenates_S512x20_S512x32_S512x52_d1 : Shape.Concatenates [S512x20, S512x32] S512x52 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S512x20_S20x128_S512x128_1_0_0_1_n_n_wf : DotDims.WF S512x20 S20x128 S512x128 [1] [0] [0] [1] [] []
  dot_S512x128_S128x20_S512x20_1_0_0_1_n_n_wf : DotDims.WF S512x128 S128x20 S512x20 [1] [0] [0] [1] [] []
  dot_S512x20_S20x512_S512x512_1_0_0_1_n_n_wf : DotDims.WF S512x20 S20x512 S512x512 [1] [0] [0] [1] [] []
  dot_S512x52_S52x1_S512x1_1_0_0_1_n_n_wf : DotDims.WF S512x52 S52x1 S512x1 [1] [0] [0] [1] [] []

variable [Facts₀]

def dot_S512x20_S20x128_S512x128_1_0_0_1_n_n : DotDims S512x20 S20x128 S512x128 where
  lhsContracting := [1]
  rhsContracting := [0]
  lhsNonContracting := [0]
  rhsNonContracting := [1]
  lhsBatch := []
  rhsBatch := []
  wf := dot_S512x20_S20x128_S512x128_1_0_0_1_n_n_wf
def dot_S512x128_S128x20_S512x20_1_0_0_1_n_n : DotDims S512x128 S128x20 S512x20 where
  lhsContracting := [1]
  rhsContracting := [0]
  lhsNonContracting := [0]
  rhsNonContracting := [1]
  lhsBatch := []
  rhsBatch := []
  wf := dot_S512x128_S128x20_S512x20_1_0_0_1_n_n_wf
def dot_S512x20_S20x512_S512x512_1_0_0_1_n_n : DotDims S512x20 S20x512 S512x512 where
  lhsContracting := [1]
  rhsContracting := [0]
  lhsNonContracting := [0]
  rhsNonContracting := [1]
  lhsBatch := []
  rhsBatch := []
  wf := dot_S512x20_S20x512_S512x512_1_0_0_1_n_n_wf
def dot_S512x52_S52x1_S512x1_1_0_0_1_n_n : DotDims S512x52 S52x1 S512x1 where
  lhsContracting := [1]
  rhsContracting := [0]
  lhsNonContracting := [0]
  rhsNonContracting := [1]
  lhsBatch := []
  rhsBatch := []
  wf := dot_S512x52_S52x1_S512x1_1_0_0_1_n_n_wf

class Facts : Prop extends Facts₀ where

variable [Facts]
-- ==== Proof.K.Base.lean ====
/-
  The pairwise L1-exp kernel on its 4 × 4 grid of (query tile, key tile) points: what every part of its frame
  proof shares. The region is entered after the host lines that compute the two-layer perceptron and the
  projection M (512 × 32 × 16); the same array M is handed to the kernel twice, once tiled by the query
  coordinate and once by the key coordinate. The body zeroes its accumulator when the key coordinate is 0,
  adds the tile's partial sums at every point, and copies the accumulator to the output block when the key
  coordinate is 3; so a point is in one of three cases according to its position modulo 4.
-/
import proofs.«152030_j712964571446_2_alg».proof.Proof.Gen.Kernel.Launch
import proofs.«152030_j712964571446_2_alg».proof.Proof.Gen.Kernel.Skeleton
import proofs.«152030_j712964571446_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The five stretches of host lines before the region, in order. -/
abbrev prefixOps : List (List (HloOp τ sig (Elt F))) := [hostOps0, hostOps0_1, hostOps0_2, hostOps0_3, hostOps0_4]

/-- A core's buffers when the region is entered: the launch contents after the host lines before it. -/
abbrev V0 (c : Dev nD) : Valuation τ sig (Elt F) := StableHlo.after (List.flatten (prefixOps (F := F))) (fun b => m (c, b))
/-- The same, read at a TensorCore reference. -/
abbrev V (c : Dev nD) (b : Ref sig .tc) : Buf (Elt F) ((c : Thread nD τ).loc b) := V0 m c (Proc.devRef .tc b)

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub⟩

theorem prefix_fresh : (prefixOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host lines before the region, the region, and the host lines after it: run from the launch
    contents it reaches the region holding the buffers at `V`, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, over the grid -/

/-- The accumulator is reset: the key coordinate is 0. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 4 = 0 :=
  (by decide +kernel : ∀ t : Fin grid0.N, condReset (grid0.coords t) ↔ t.val % 4 = 0)

/-- The accumulator is copied out: the key coordinate is 3. -/
abbrev condOut (i : grid0.Coords) : Prop := k0_cond2 i = 1#1
theorem hcondOut : ∀ t : Fin cfg0.N, condOut (grid0.coords t) ↔ t.val % 4 = 3 :=
  (by decide +kernel : ∀ t : Fin grid0.N, condOut (grid0.coords t) ↔ t.val % 4 = 3)

/-! ## Where the windows are idle, fetched and written back -/

theorem live0 : ∀ t : Fin cfg0.N, cfg0.idle 0 (grid0.coords t) = false := by decide +kernel
theorem live1 : ∀ t : Fin cfg0.N, cfg0.idle 1 (grid0.coords t) = false := by decide +kernel
theorem idle2_of_not_out : ∀ t : Fin cfg0.N, ¬condOut (grid0.coords t) → cfg0.idle 2 (grid0.coords t) = true := by decide +kernel
theorem noFlush2_of_not_out : ∀ t : Fin cfg0.N, ¬condOut (grid0.coords t) → (cfg0.win 2).flush t = false := by decide +kernel
theorem live2_of_out : ∀ t : Fin cfg0.N, condOut (grid0.coords t) → cfg0.idle 2 (grid0.coords t) = false := by decide +kernel

/-! ## The memrefs the body is called with -/

abbrev ms0 (t : Fin cfg0.N) : Memref sig .tc .vmem S128x32x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x32x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev accM : Memref sig .tc .vmem S128x32 .f32 := Memref.whole cc0_scratch0
/-- One view through which the accumulator's and the output block's contents are stated. -/
abbrev accV : View sig .tc .vmem S128x32 .f32 := (accM : Memref sig .tc .vmem S128x32 .f32).view
abbrev outV : View sig .tc .vmem S128x32 .f32 := (Memref.whole cc0_stg2_0 : Memref sig .tc .vmem S128x32 .f32).view

/-- What the launch hands the region besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.RunMid.lean ====
/-
  The body at a point whose key coordinate is 1 or 2: it reads the query tile, the key tile and the accumulator,
  and stores the accumulator plus the tile's partial sums; the output block's buffer is not touched.
-/
import proofs.«152030_j712964571446_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the middle case leaves in the accumulator, with the body's triple: the query and key tiles and the
    untouched output buffer come back as they were, the accumulator (found at `acc`) with its pieces written. -/
noncomputable def runMid (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) :
    { LS : List (View.Piece (Elt F) S128x32 .f32) //
      ∀ (xo : Vec F S128x32 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare acc
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_l1exp_kernel i arg2 harg2 arg3 harg3 arg4 harg4 arg5 harg5) K } := by
  refine ⟨?_, fun xo E K => ?run⟩
  case run =>
    simp only [cc0__pairwise_l1exp_kernel_eq_skeleton]; unfold cc0__pairwise_l1exp_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hr | exact ho)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.RunFirst.lean ====
/-
  The body at a point whose key coordinate is 0: it first stores zeros over the accumulator, whatever it held,
  then proceeds as at a middle point.
-/
import proofs.«152030_j712964571446_2_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first case leaves in the accumulator (the zeros, then the sum), with the body's triple: the
    accumulator is taken at any contents. -/
noncomputable def runFirst (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) :
    { LS : List (View.Piece (Elt F) S128x32 .f32) //
      ∀ (xo : Vec F S128x32 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_l1exp_kernel i arg2 harg2 arg3 harg3 arg4 harg4 arg5 harg5) K } := by
  refine ⟨?_, fun xo E K => ?run⟩
  case run =>
    simp only [cc0__pairwise_l1exp_kernel_eq_skeleton]; unfold cc0__pairwise_l1exp_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hr | exact ho)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.RunLast.lean ====
/-
  The body at a point whose key coordinate is 3: as at a middle point, and then the accumulator's new contents
  are stored over the output block's buffer, whatever it held.
-/
import proofs.«152030_j712964571446_2_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the last case leaves in the output block's buffer and in the accumulator, with the body's triple. -/
noncomputable def runLast (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) :
    Σ' (LO : List (View.Piece (Elt F) S128x32 .f32)), { LS : List (View.Piece (Elt F) S128x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare acc
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_l1exp_kernel i arg2 harg2 arg3 harg3 arg4 harg4 arg5 harg5) K } := by
  refine ⟨?_, ?_, fun E K => ?run⟩
  case run =>
    simp only [cc0__pairwise_l1exp_kernel_eq_skeleton]; unfold cc0__pairwise_l1exp_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hr | exact ho)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Hand

end
-- ==== Proof.K.Data.lean ====
/-
  The pipeline's proof data for the pairwise kernel. After the body at a point the accumulator holds what the
  point's case left in it: at a point with key coordinate 0 the sum over the first key tile on top of zeros, at a
  later point the previous contents plus the sum over this key tile; at key coordinate 3 the output block's buffer
  receives the accumulator. The state after each point is defined by recursion on the point, and the region's
  invariant carries the accumulator at that state. The array M feeds two windows, so each holds one half of it.
-/
import proofs.«152030_j712964571446_2_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

theorem coverFirst (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) (y : S128x32.Idx) : ∃ pc ∈ (runFirst c i arg2 harg2 arg3 harg3 arg4 harg4 arg5 harg5 hr ho x0 x1).1, y ∈ pc.1.set :=
  View.cover_of_tiledL (runFirst c i arg2 harg2 arg3 harg3 arg4 harg4 arg5 harg5 hr ho x0 x1).1 S128x32.size (by sl_kernel_rfl) y

/-- The accumulator after a point with key coordinate 0. -/
def accFirst (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) : Vec F S128x32 .f32 :=
  accV.read (Elt F) (accV.writes (Elt F) accV.junk (runFirst c i arg2 harg2 arg3 harg3 arg4 harg4 arg5 harg5 hr ho x0 x1).1)

theorem coverMid (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) (y : S128x32.Idx) : ∃ pc ∈ (runMid c i arg2 harg2 arg3 harg3 arg4 harg4 arg5 harg5 hr ho x0 x1 acc).1, y ∈ pc.1.set :=
  View.cover_of_tiledL (runMid c i arg2 harg2 arg3 harg3 arg4 harg4 arg5 harg5 hr ho x0 x1 acc).1 S128x32.size (by sl_kernel_rfl) y

/-- The accumulator after a point with key coordinate 1 or 2, found at `acc`. -/
def accMid (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) : Vec F S128x32 .f32 :=
  accV.read (Elt F) (accV.writes (Elt F) accV.junk (runMid c i arg2 harg2 arg3 harg3 arg4 harg4 arg5 harg5 hr ho x0 x1 acc).1)

theorem coverLastAcc (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) (y : S128x32.Idx) : ∃ pc ∈ (runLast c i arg2 harg2 arg3 harg3 arg4 harg4 arg5 harg5 hr ho x0 x1 acc).2.1, y ∈ pc.1.set :=
  View.cover_of_tiledL (runLast c i arg2 harg2 arg3 harg3 arg4 harg4 arg5 harg5 hr ho x0 x1 acc).2.1 S128x32.size (by sl_kernel_rfl) y

/-- The accumulator after a point with key coordinate 3, found at `acc`. -/
def accLast (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) : Vec F S128x32 .f32 :=
  accV.read (Elt F) (accV.writes (Elt F) accV.junk (runLast c i arg2 harg2 arg3 harg3 arg4 harg4 arg5 harg5 hr ho x0 x1 acc).2.1)

theorem coverLastOut (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) (y : S128x32.Idx) : ∃ pc ∈ (runLast c i arg2 harg2 arg3 harg3 arg4 harg4 arg5 harg5 hr ho x0 x1 acc).1, y ∈ pc.1.set :=
  View.cover_of_tiledL (runLast c i arg2 harg2 arg3 harg3 arg4 harg4 arg5 harg5 hr ho x0 x1 acc).1 S128x32.size (by sl_kernel_rfl) y

/-- The output block's buffer after a point with key coordinate 3. -/
def outLast (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) : Vec F S128x32 .f32 :=
  outV.read (Elt F) (outV.writes (Elt F) outV.junk (runLast c i arg2 harg2 arg3 harg3 arg4 harg4 arg5 harg5 hr ho x0 x1 acc).1)

/-- A placeholder for the output buffer at the points that leave it alone: nothing consults it. -/
def outIdle : Vec F S128x32 .f32 := outV.read (Elt F) outV.junk

/-! ## The state after each point -/

/-- The output block's buffer and the accumulator after the body at position `n`: the case the position selects
    (its residue modulo 4), run on the point's query and key tiles, the accumulator taken from position `n - 1`. -/
def stateAt (c : Dev nD) : (n : ℕ) → n < cfg0.N → Vec F S128x32 .f32 × Vec F S128x32 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondReset ⟨0, hn⟩).mpr (Nat.zero_mod _)) (fun h => (fun h => by (try dsimp only at h); omega) ((hcondOut ⟨0, hn⟩).mp h)) (iblk m c 0 ⟨0, hn⟩) (iblk m c 1 ⟨0, hn⟩))
  | n + 1, hn =>
    if h0 : (n + 1) % 4 = 0 then
      if h3 : (n + 1) % 4 = 3 then
        False.elim (by omega)
      else
        (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondReset ⟨n + 1, hn⟩).mpr h0) (fun h => h3 ((hcondOut ⟨n + 1, hn⟩).mp h)) (iblk m c 0 ⟨n + 1, hn⟩) (iblk m c 1 ⟨n + 1, hn⟩))
    else
      if h3 : (n + 1) % 4 = 3 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondReset ⟨n + 1, hn⟩).mp h)) ((hcondOut ⟨n + 1, hn⟩).mpr h3) (iblk m c 0 ⟨n + 1, hn⟩) (iblk m c 1 ⟨n + 1, hn⟩) (stateAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondReset ⟨n + 1, hn⟩).mp h)) ((hcondOut ⟨n + 1, hn⟩).mpr h3) (iblk m c 0 ⟨n + 1, hn⟩) (iblk m c 1 ⟨n + 1, hn⟩) (stateAt c n (Nat.lt_of_succ_lt hn)).2)
      else
        (outIdle, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondReset ⟨n + 1, hn⟩).mp h)) (fun h => h3 ((hcondOut ⟨n + 1, hn⟩).mp h)) (iblk m c 0 ⟨n + 1, hn⟩) (iblk m c 1 ⟨n + 1, hn⟩) (stateAt c n (Nat.lt_of_succ_lt hn)).2)

theorem stateAt_first (c : Dev nD) (t : Fin cfg0.N) (h0 : t.val % 4 = 0) (h3 : ¬t.val % 4 = 3) :
    stateAt m c t.val t.isLt = (outIdle, accFirst c (grid0.coords t) (ms0 t) (hs0 t) (ms1 t) (hs1 t) (ms2 t) (hs2 t) accM (Memref.isWhole_whole _) ((hcondReset t).mpr h0) (fun h => h3 ((hcondOut t).mp h)) (iblk m c 0 t) (iblk m c 1 t)) := by
  obtain ⟨n, hn⟩ := t
  cases n with
  | zero => exact rfl
  | succ n => exact (dif_pos h0).trans ((dif_neg h3).trans rfl)

theorem stateAt_mid (c : Dev nD) (t : Fin cfg0.N) (h0 : ¬t.val % 4 = 0) (h3 : ¬t.val % 4 = 3) :
    stateAt m c t.val t.isLt = (outIdle, accMid c (grid0.coords t) (ms0 t) (hs0 t) (ms1 t) (hs1 t) (ms2 t) (hs2 t) accM (Memref.isWhole_whole _) (fun h => h0 ((hcondReset t).mp h)) (fun h => h3 ((hcondOut t).mp h)) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg0.N) (h0 : ¬t.val % 4 = 0) (h3 : t.val % 4 = 3) :
    stateAt m c t.val t.isLt = (outLast c (grid0.coords t) (ms0 t) (hs0 t) (ms1 t) (hs1 t) (ms2 t) (hs2 t) accM (Memref.isWhole_whole _) (fun h => h0 ((hcondReset t).mp h)) ((hcondOut t).mpr h3) (iblk m c 0 t) (iblk m c 1 t) (stateAt m c (t.val - 1) (Nat.lt_of_le_of_lt (Nat.sub_le _ _) t.isLt)).2,
      accLast c (grid0.coords t) (ms0 t) (hs0 t) (ms1 t) (hs1 t) (ms2 t) (hs2 t) accM (Memref.isWhole_whole _) (fun h => h0 ((hcondReset t).mp h)) ((hcondOut t).mpr h3) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The region's invariant -/

/-- Before position `n`: at the region's entry the accumulator at anything; afterwards at what position `n - 1` left. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- On core `c`: the arrays as the region finds them; after the body each input's buffer at its block and the
    output's at the state's first component; the invariant above; nothing owed; the array M held in two halves, one
    per input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]

/-- The query tile's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- The key tile's buffer holds its block at every point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

end Cert.Kernel.Hand

end
-- ==== Proof.K.Body.lean ====
/-
  The body obligation of the pairwise kernel at every grid point. A point's residue modulo 4 is its key coordinate
  and selects the case; the input buffers hold their blocks; the invariant hands the body the accumulator at what
  the previous point left (at anything at the very first point) and takes it back at this point's contents; the
  output block's buffer is handed back untouched unless the key coordinate is 3.
-/
import proofs.«152030_j712964571446_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 16 := lt_of_lt_of_eq t.isLt (show cfg0.N = 16 from N_0)
  by_cases h0 : t.val % 4 = 0
  · have h3 : ¬t.val % 4 = 3 := by omega
    have hno : ¬condOut (grid0.coords t) := fun h => h3 ((hcondOut t).mp h)
    rw [Dat.leavesExact_idle (dats m 0 c) 2 t (idle2_of_not_out t hno) (noFlush2_of_not_out t hno)]
    rw [stateAt_first m c t h0 h3]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondReset t).mpr h0) hno (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondReset t).mpr h0) hno (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hnr : ¬condReset (grid0.coords t) := fun h => h0 ((hcondReset t).mp h)
    have hz : t.val ≠ 0 := fun h => h0 (by rw [h])
    by_cases h3 : t.val % 4 = 3
    · have hout : condOut (grid0.coords t) := (hcondOut t).mpr h3
      rw [show (dats m 0 c).leavesExact 2 t = owns (c : Thread nD τ) (ms2 t) fullShare ((dats m 0 c).after 2 t) from by
        unfold Dat.leavesExact; rw [live2_of_out t hout], after2]
      rw [stateAt_last m c t h0 h3]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ hnr hout (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · have hno : ¬condOut (grid0.coords t) := fun h => h3 ((hcondOut t).mp h)
      rw [Dat.leavesExact_idle (dats m 0 c) 2 t (idle2_of_not_out t hno) (noFlush2_of_not_out t hno)]
      rw [stateAt_mid m c t h0 h3]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ hnr hno (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Hand

end
-- ==== Proof.K.Launch.lean ====
/-
  The launch of the pairwise kernel's region and the run of the whole program. The kernel's two input windows read
  one array, M, so the array's full share is dealt to them as two halves at the region's entry and put back together
  at its exit, where both halves still hold M's entry contents (an input array is never written); the output window
  holds its own array whole. The host lines after the region then run over all the unscoped buffers, at the entry
  contents except for the output array, which holds what the write-backs made of it.
-/
import proofs.«152030_j712964571446_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: M in two halves, the output array whole -/

/-- The buffers behind the windows' arrays are M and the output array. -/
theorem arr_image : (Finset.univ.image (Pipeline.arrRef spec0) : Finset (Ref sig .tc)) = {main_v11, main_v12} := by decide

/-- The pipeline's arrays at any contents: M's two halves and the output array. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v11) ↦{fullShare.left} G 0) ∗ (((c : Thread nD τ).loc main_v11) ↦{fullShare.right} G 1)
          ∗ (((c : Thread nD τ).loc main_v12) ↦{fullShare} G 2)) := by
  unfold Dat.arrays
  rw [bigSep_W0]
  rw [(arr_whole0 0).set_eq_univ, (arr_whole0 2).set_eq_univ]
  rfl

/-- The buffers behind the arrays, whole at the full share at `W`, are the pipeline's arrays at contents that agree
    with `W`: M's full share is the two halves the input windows hold. -/
theorem arrBufs_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v11) (h1 : G 1 = W main_v11) (h2 : G 2 = W main_v12) :
    (Pipeline.arrBufs spec0 c W : sProp 𝕄) ⊣⊢ (dats m 0 c).arrays G := by
  rw [arrays_chain, h0, h1, h2]
  unfold Pipeline.arrBufs
  rw [arr_image, bigSep_insert (by decide), bigSep_singleton]
  have hsh : ((((c : Thread nD τ).loc main_v11) ↦{fullShare} W main_v11) : sProp 𝕄)
      ⊣⊢ iprop((((c : Thread nD τ).loc main_v11) ↦{fullShare.left} W main_v11) ∗ (((c : Thread nD τ).loc main_v11) ↦{fullShare.right} W main_v11)) :=
    pointsTo_share (PosShare.mem_left_op_right fullShare)
  constructor
  · show iprop((((c : Thread nD τ).loc main_v11) ↦{fullShare} W main_v11) ∗ (((c : Thread nD τ).loc main_v12) ↦{fullShare} W main_v12)) ⊢ _
    iintro ⟨H11, H12⟩
    ihave H := hsh.1 $$ H11
    icases H with ⟨HL, HR⟩
    isplitl [HL]; · iexact HL
    isplitl [HR]; · iexact HR
    iexact H12
  · show _ ⊢ iprop((((c : Thread nD τ).loc main_v11) ↦{fullShare} W main_v11) ∗ (((c : Thread nD τ).loc main_v12) ↦{fullShare} W main_v12))
    iintro ⟨HL, HR, H12⟩
    isplitr [H12]
    · iapply hsh.2
      isplitl [HL]; · iexact HL
      iexact HR
    iexact H12

/-! ## The region's exit and the host lines after it -/

open Classical in
/-- A core's buffers when the region is left: as at its entry, but the output array at what the write-backs made of it. -/
def exitV (c : Dev nD) : Valuation τ sig (Elt F) :=
  Function.update (V0 m c) (Proc.devRef .tc main_v12) ((dats m 0 c).arrAt 2 cfg0.N)

/-- A core's buffers after the host lines that follow the region. -/
abbrev endV (c : Dev nD) : Valuation τ sig (Elt F) := StableHlo.after (List.flatten [hostOps1]) (exitV m c)
/-- The same, read at a TensorCore reference. -/
abbrev endR (c : Dev nD) (b : Ref sig .tc) : Buf (Elt F) ((c : Thread nD τ).loc b) := endV m c (Proc.devRef .tc b)

theorem exitV_out (c : Dev nD) : exitV m c (Proc.devRef .tc main_v12) = (dats m 0 c).arrAt 2 cfg0.N := by
  unfold exitV; exact Function.update_self ..

theorem exitV_of_ne (c : Dev nD) (b : Ref sig .tc) (hb : b ≠ main_v12) : exitV m c (Proc.devRef .tc b) = V m c b := by
  unfold exitV; exact Function.update_of_ne (StableHlo.devRef_ne_of_ne hb) _ _

/-- The host lines after the region write neither M nor the output array. -/
theorem tail_keeps (b : Ref sig .tc) (hb : b = main_v11 ∨ b = main_v12) :
    ∀ op ∈ (List.flatten [hostOps1] : List (HloOp τ sig (Elt F))), Proc.devRef (τ := τ) .tc b ∉ op.writes := by
  intro op hop
  simp only [List.flatten_cons, List.flatten_nil, List.append_nil, hostOps1, List.mem_cons, List.mem_nil_iff, or_false] at hop
  rcases hb with rfl | rfl <;> rcases hop with rfl | rfl | rfl | rfl | rfl | rfl | rfl | rfl | rfl | rfl | rfl | rfl | rfl | rfl | rfl | rfl | rfl | rfl | rfl <;>
    simp only [StableHlo.nullary_writes, StableHlo.unary_writes, StableHlo.binary_writes, Finset.mem_singleton] <;>
    exact StableHlo.devRef_ne_of_ne (by decide)

theorem endR_v11 (c : Dev nD) : endR m c main_v11 = V m c main_v11 :=
  (StableHlo.after_of_forall_not_mem _ _ (tail_keeps main_v11 (Or.inl rfl))).trans (exitV_of_ne m c main_v11 (by decide))

theorem endR_v12 (c : Dev nD) : endR m c main_v12 = (dats m 0 c).arrAt 2 cfg0.N :=
  (StableHlo.after_of_forall_not_mem _ _ (tail_keeps main_v12 (Or.inr rfl))).trans (exitV_out m c)

theorem arrAt0 (c : Dev nD) (n : ℕ) : (dats m 0 c).arrAt 0 n = V m c main_v11 :=
  ((dats m 0 c).arrAt_in 0 rfl n).trans (A_eq m c 0)
theorem arrAt1 (c : Dev nD) (n : ℕ) : (dats m 0 c).arrAt 1 n = V m c main_v11 :=
  ((dats m 0 c).arrAt_in 1 rfl n).trans (A_eq m c 1)

end Cert.Kernel.Hand

end
-- ==== Proof.K.Run.lean ====
/-
  The run of the whole program: the host lines, the pairwise kernel's region and the host lines after it. Every
  weakly fair execution terminates; each of the pipeline's arrays ends at what the write-backs made of it, and every
  other unscoped buffer at what the host lines after the region compute from the region's exit contents.
-/
import proofs.«152030_j712964571446_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The bypassing buffers hold the same at the region's exit as at its entry: only the output array differs. -/
theorem rest_exit (c : Dev nD) :
    (Pipeline.unscopedRest spec0 c (V m c) : sProp 𝕄) = Pipeline.unscopedRest spec0 c (fun b => exitV m c (Proc.devRef .tc b)) := by
  unfold Pipeline.unscopedRest
  refine bigSep_congr fun b hb => ?_
  have hne : b ≠ main_v12 := by
    rintro rfl
    exact (Finset.mem_sdiff.mp hb).2 (by decide)
  beta_reduce
  rw [exitV_of_ne m c b hne]

set_option backward.isDefEq.respectTransparency.types false in
/-- The host lines after the region: from the arrays at their final contents and the bypassing buffers at the entry
    contents, they run to the end, handing back the arrays and the bypassing buffers at `endR`. -/
theorem tail (𝒱₀ : Variants) (c : Dev nD) (Q' : PUnit → sProp 𝕄) :
    iprop((iprop((dats m 0 c).arrays ((dats m 0 c).arrAt · cfg0.N) ∗ Pipeline.unscopedRest spec0 c (endR m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c.tc : Thread nD τ) none) Set.univ
          (Pipeline.chain [StableHlo.seq hostOps1]) Q' := by
  rw [rest_exit]
  have hsub : ∀ ops ∈ ([hostOps1] : List (List (HloOp τ sig (Elt F)))), ∀ op ∈ ops, op.bufs ⊆ Pipeline.ucRefs τ sig := by
    intro ops hops op hop
    simp only [List.mem_cons, List.mem_nil_iff, or_false] at hops
    rcases hops with rfl
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    simp only [List.mem_cons, List.mem_nil_iff, or_false] at hops
    rcases hops with rfl
    exact (List.forall_iff_forall_mem.mp hostOps1_fresh) op hop
  iintro ⟨Hk, Hb, Ha, Hz⟩
  ihave Hab := (arrBufs_arrays m c (fun b => exitV m c (Proc.devRef .tc b)) _ ((arrAt0 m c _).trans (exitV_of_ne m c main_v11 (by decide)).symm)
    ((arrAt1 m c _).trans (exitV_of_ne m c main_v11 (by decide)).symm) (exitV_out m c).symm).2 $$ Ha
  ihave Hu := (Entails.of_eq (Pipeline.unscopedBufs_split₀ cfgs 0 winFacts₀0.arr_unscoped c (fun b => exitV m c (Proc.devRef .tc b))).symm) $$ [Hab Hz]
  · isplitl [Hab] <;> iassumption
  ihave Hh := (Entails.of_eq (Pipeline.unscopedBufs_held (Ix := Unit) (Name := ℕ) (U := UR sig nD τ) (Lvl := ℕ) c (exitV m c))) $$ Hu
  iapply (Pipeline.wp_seqs_then (pcfgs (F := F)) defs₀ 𝒱₀ c (Pipeline.ucRefs τ sig) [] [hostOps1] hsub hfresh (exitV m c)) $$ [Hb Hh]
  · isplitl [Hb] <;> iassumption
  iintro ⟨Hb, Hh⟩
  rw [Pipeline.chain_nil]
  iapply (le_wp_ret _ _ _ _ Q')
  iapply Hk
  ihave Hu := (Entails.of_eq (Pipeline.unscopedBufs_held (Ix := Unit) (Name := ℕ) (U := UR sig nD τ) (Lvl := ℕ) c (endV m c)).symm) $$ Hh
  ihave Hs := (Entails.of_eq (Pipeline.unscopedBufs_split₀ cfgs 0 winFacts₀0.arr_unscoped c (fun b => endV m c (Proc.devRef .tc b)))) $$ Hu
  icases Hs with ⟨Hab, Hz⟩
  isplitl [Hab]
  · iapply (arrBufs_arrays m c (endR m c) _ ((arrAt0 m c _).trans (endR_v11 m c).symm)
      ((arrAt1 m c _).trans (endR_v11 m c).symm) (endR_v12 m c).symm).1
    iexact Hab
  iexact Hz

/-! ## The run -/

/-- No table is prefetched: the one admissible contents. -/
abbrev adm : (p : Fin 1) → (pcfgs (F := F) p).Adm := fun p => (cfgs p).toPCfg_adm

set_option backward.isDefEq.respectTransparency.types false in
/-- From any memory with zero counters every weakly fair execution of the program terminates, nothing faulting; the
    pipeline's arrays end at what the write-backs made of them and every other unscoped buffer at `endR`. -/
theorem run_main : θ_run defs (onTc (τ := τ) (main (F := F))) (s₀ m ρ) (Pipeline.FramePost cfgs (dats m) 0 (endR m)) := by
  classical
  exact Pipeline.θ_run_region_pf_tail (pcfgs (F := F)) adm (dats m) () cellOf_inj 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrBufs_arrays m c (V m c) _ (A_eq m c 0) (A_eq m c 1) (A_eq m c 2)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (endR m c))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail m Variants.none c Q')
    (QY := fun c s => ∀ b ∈ Pipeline.restRefsP sig Pipeline.Prefetch.none spec0, s.mem ((c.tc : Thread nD τ).loc b) = endR m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (endR m c) s')
      isplitl [HU] <;> iassumption)
    (hQ := fun s h c => ⟨(h c).1, Pipeline.rest_of_restP Pipeline.Prefetch.none spec0 (adm 0).1 c (endR m c) s (fun k => k.elim0) (h c).2.1 (h c).2.2⟩)

/-- info: 'Cert.Kernel.Hand.run_main' depends on axioms: [propext, Classical.choice, Quot.sound] -/
#guard_msgs in #print axioms run_main

end Cert.Kernel.Hand

end
-- ==== Proof.K.Frame.lean ====
/-
  The frame of the program around the pairwise kernel: no host line and no write-back touches an argument array, so
  each ends as it was launched.
-/
import proofs.«152030_j712964571446_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_arg0 (c : Dev nD) : V m c main_arg0 = m ((c : Thread nD τ).loc main_arg0) := by
  dsimp only [V, V0, prefixOps]
  simp only [hostOps0, hostOps0_1, hostOps0_2, hostOps0_3, hostOps0_4, List.flatten_cons, List.flatten_nil, List.append_nil, List.cons_append, List.nil_append]
  after_results

theorem endR_arg0 (c : Dev nD) : endR m c main_arg0 = m ((c : Thread nD τ).loc main_arg0) := by
  dsimp only [endR, endV]
  simp only [hostOps1, List.flatten_cons, List.flatten_nil, List.append_nil]
  after_results
  exact (exitV_of_ne m c main_arg0 (by decide)).trans (V_arg0 m c)

theorem V_arg1 (c : Dev nD) : V m c main_arg1 = m ((c : Thread nD τ).loc main_arg1) := by
  dsimp only [V, V0, prefixOps]
  simp only [hostOps0, hostOps0_1, hostOps0_2, hostOps0_3, hostOps0_4, List.flatten_cons, List.flatten_nil, List.append_nil, List.cons_append, List.nil_append]
  after_results

theorem endR_arg1 (c : Dev nD) : endR m c main_arg1 = m ((c : Thread nD τ).loc main_arg1) := by
  dsimp only [endR, endV]
  simp only [hostOps1, List.flatten_cons, List.flatten_nil, List.append_nil]
  after_results
  exact (exitV_of_ne m c main_arg1 (by decide)).trans (V_arg1 m c)

theorem V_arg2 (c : Dev nD) : V m c main_arg2 = m ((c : Thread nD τ).loc main_arg2) := by
  dsimp only [V, V0, prefixOps]
  simp only [hostOps0, hostOps0_1, hostOps0_2, hostOps0_3, hostOps0_4, List.flatten_cons, List.flatten_nil, List.append_nil, List.cons_append, List.nil_append]
  after_results

theorem endR_arg2 (c : Dev nD) : endR m c main_arg2 = m ((c : Thread nD τ).loc main_arg2) := by
  dsimp only [endR, endV]
  simp only [hostOps1, List.flatten_cons, List.flatten_nil, List.append_nil]
  after_results
  exact (exitV_of_ne m c main_arg2 (by decide)).trans (V_arg2 m c)

theorem V_arg3 (c : Dev nD) : V m c main_arg3 = m ((c : Thread nD τ).loc main_arg3) := by
  dsimp only [V, V0, prefixOps]
  simp only [hostOps0, hostOps0_1, hostOps0_2, hostOps0_3, hostOps0_4, List.flatten_cons, List.flatten_nil, List.append_nil, List.cons_append, List.nil_append]
  after_results

theorem endR_arg3 (c : Dev nD) : endR m c main_arg3 = m ((c : Thread nD τ).loc main_arg3) := by
  dsimp only [endR, endV]
  simp only [hostOps1, List.flatten_cons, List.flatten_nil, List.append_nil]
  after_results
  exact (exitV_of_ne m c main_arg3 (by decide)).trans (V_arg3 m c)

theorem V_arg4 (c : Dev nD) : V m c main_arg4 = m ((c : Thread nD τ).loc main_arg4) := by
  dsimp only [V, V0, prefixOps]
  simp only [hostOps0, hostOps0_1, hostOps0_2, hostOps0_3, hostOps0_4, List.flatten_cons, List.flatten_nil, List.append_nil, List.cons_append, List.nil_append]
  after_results

theorem endR_arg4 (c : Dev nD) : endR m c main_arg4 = m ((c : Thread nD τ).loc main_arg4) := by
  dsimp only [endR, endV]
  simp only [hostOps1, List.flatten_cons, List.flatten_nil, List.append_nil]
  after_results
  exact (exitV_of_ne m c main_arg4 (by decide)).trans (V_arg4 m c)

theorem V_arg5 (c : Dev nD) : V m c main_arg5 = m ((c : Thread nD τ).loc main_arg5) := by
  dsimp only [V, V0, prefixOps]
  simp only [hostOps0, hostOps0_1, hostOps0_2, hostOps0_3, hostOps0_4, List.flatten_cons, List.flatten_nil, List.append_nil, List.cons_append, List.nil_append]
  after_results

theorem endR_arg5 (c : Dev nD) : endR m c main_arg5 = m ((c : Thread nD τ).loc main_arg5) := by
  dsimp only [endR, endV]
  simp only [hostOps1, List.flatten_cons, List.flatten_nil, List.append_nil]
  after_results
  exact (exitV_of_ne m c main_arg5 (by decide)).trans (V_arg5 m c)

theorem V_arg6 (c : Dev nD) : V m c main_arg6 = m ((c : Thread nD τ).loc main_arg6) := by
  dsimp only [V, V0, prefixOps]
  simp only [hostOps0, hostOps0_1, hostOps0_2, hostOps0_3, hostOps0_4, List.flatten_cons, List.flatten_nil, List.append_nil, List.cons_append, List.nil_append]
  after_results

theorem endR_arg6 (c : Dev nD) : endR m c main_arg6 = m ((c : Thread nD τ).loc main_arg6) := by
  dsimp only [endR, endV]
  simp only [hostOps1, List.flatten_cons, List.flatten_nil, List.append_nil]
  after_results
  exact (exitV_of_ne m c main_arg6 (by decide)).trans (V_arg6 m c)

theorem V_arg7 (c : Dev nD) : V m c main_arg7 = m ((c : Thread nD τ).loc main_arg7) := by
  dsimp only [V, V0, prefixOps]
  simp only [hostOps0, hostOps0_1, hostOps0_2, hostOps0_3, hostOps0_4, List.flatten_cons, List.flatten_nil, List.append_nil, List.cons_append, List.nil_append]
  after_results

theorem endR_arg7 (c : Dev nD) : endR m c main_arg7 = m ((c : Thread nD τ).loc main_arg7) := by
  dsimp only [endR, endV]
  simp only [hostOps1, List.flatten_cons, List.flatten_nil, List.append_nil]
  after_results
  exact (exitV_of_ne m c main_arg7 (by decide)).trans (V_arg7 m c)

/-- The program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide)).trans (endR_arg0 m c), ((h c).2 main_arg1 (by decide)).trans (endR_arg1 m c), ((h c).2 main_arg2 (by decide)).trans (endR_arg2 m c), ((h c).2 main_arg3 (by decide)).trans (endR_arg3 m c), ((h c).2 main_arg4 (by decide)).trans (endR_arg4 m c), ((h c).2 main_arg5 (by decide)).trans (endR_arg5 m c), ((h c).2 main_arg6 (by decide)).trans (endR_arg6 m c), ((h c).2 main_arg7 (by decide)).trans (endR_arg7 m c)⟩) (run_main m ρ)

end Cert.Kernel.Hand

end
-- ==== Proof.KI.Base.lean ====
/-
  The pairwise L1-exp kernel on its 4 × 4 grid of (query tile, key tile) points: what every part of its frame
  proof shares. The region is entered after the host lines that compute the two-layer perceptron and the
  projection M (512 × 32 × 16); the same array M is handed to the kernel twice, once tiled by the query
  coordinate and once by the key coordinate. The body zeroes its accumulator when the key coordinate is 0,
  adds the tile's partial sums at every point, and copies the accumulator to the output block when the key
  coordinate is 3; so a point is in one of three cases according to its position modulo 4.
-/
import proofs.«152030_j712964571446_2_alg».proof.Proof.Gen.KernelIdeal.Launch
import proofs.«152030_j712964571446_2_alg».proof.Proof.Gen.KernelIdeal.Skeleton
import proofs.«152030_j712964571446_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The five stretches of host lines before the region, in order. -/
abbrev prefixOps : List (List (HloOp τ sig (Elt F))) := [hostOps0, hostOps0_1, hostOps0_2, hostOps0_3, hostOps0_4]

/-- A core's buffers when the region is entered: the launch contents after the host lines before it. -/
abbrev V0 (c : Dev nD) : Valuation τ sig (Elt F) := StableHlo.after (List.flatten (prefixOps (F := F))) (fun b => m (c, b))
/-- The same, read at a TensorCore reference. -/
abbrev V (c : Dev nD) (b : Ref sig .tc) : Buf (Elt F) ((c : Thread nD τ).loc b) := V0 m c (Proc.devRef .tc b)

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub⟩

theorem prefix_fresh : (prefixOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host lines before the region, the region, and the host lines after it: run from the launch
    contents it reaches the region holding the buffers at `V`, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, over the grid -/

/-- The accumulator is reset: the key coordinate is 0. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 4 = 0 :=
  (by decide +kernel : ∀ t : Fin grid0.N, condReset (grid0.coords t) ↔ t.val % 4 = 0)

/-- The accumulator is copied out: the key coordinate is 3. -/
abbrev condOut (i : grid0.Coords) : Prop := k0_cond2 i = 1#1
theorem hcondOut : ∀ t : Fin cfg0.N, condOut (grid0.coords t) ↔ t.val % 4 = 3 :=
  (by decide +kernel : ∀ t : Fin grid0.N, condOut (grid0.coords t) ↔ t.val % 4 = 3)

/-! ## Where the windows are idle, fetched and written back -/

theorem live0 : ∀ t : Fin cfg0.N, cfg0.idle 0 (grid0.coords t) = false := by decide +kernel
theorem live1 : ∀ t : Fin cfg0.N, cfg0.idle 1 (grid0.coords t) = false := by decide +kernel
theorem idle2_of_not_out : ∀ t : Fin cfg0.N, ¬condOut (grid0.coords t) → cfg0.idle 2 (grid0.coords t) = true := by decide +kernel
theorem noFlush2_of_not_out : ∀ t : Fin cfg0.N, ¬condOut (grid0.coords t) → (cfg0.win 2).flush t = false := by decide +kernel
theorem live2_of_out : ∀ t : Fin cfg0.N, condOut (grid0.coords t) → cfg0.idle 2 (grid0.coords t) = false := by decide +kernel

/-! ## The memrefs the body is called with -/

abbrev ms0 (t : Fin cfg0.N) : Memref sig .tc .vmem S128x32x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x32x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev accM : Memref sig .tc .vmem S128x32 .f32 := Memref.whole cc0_scratch0
/-- One view through which the accumulator's and the output block's contents are stated. -/
abbrev accV : View sig .tc .vmem S128x32 .f32 := (accM : Memref sig .tc .vmem S128x32 .f32).view
abbrev outV : View sig .tc .vmem S128x32 .f32 := (Memref.whole cc0_stg2_0 : Memref sig .tc .vmem S128x32 .f32).view

/-- What the launch hands the region besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunMid.lean ====
/-
  The body at a point whose key coordinate is 1 or 2: it reads the query tile, the key tile and the accumulator,
  and stores the accumulator plus the tile's partial sums; the output block's buffer is not touched.
-/
import proofs.«152030_j712964571446_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the middle case leaves in the accumulator, with the body's triple: the query and key tiles and the
    untouched output buffer come back as they were, the accumulator (found at `acc`) with its pieces written. -/
noncomputable def runMid (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) :
    { LS : List (View.Piece (Elt F) S128x32 .f32) //
      ∀ (xo : Vec F S128x32 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare acc
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_l1exp_kernel i arg2 harg2 arg3 harg3 arg4 harg4 arg5 harg5) K } := by
  refine ⟨?_, fun xo E K => ?run⟩
  case run =>
    simp only [cc0__pairwise_l1exp_kernel_eq_skeleton]; unfold cc0__pairwise_l1exp_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hr | exact ho)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.RunFirst.lean ====
/-
  The body at a point whose key coordinate is 0: it first stores zeros over the accumulator, whatever it held,
  then proceeds as at a middle point.
-/
import proofs.«152030_j712964571446_2_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first case leaves in the accumulator (the zeros, then the sum), with the body's triple: the
    accumulator is taken at any contents. -/
noncomputable def runFirst (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) :
    { LS : List (View.Piece (Elt F) S128x32 .f32) //
      ∀ (xo : Vec F S128x32 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_l1exp_kernel i arg2 harg2 arg3 harg3 arg4 harg4 arg5 harg5) K } := by
  refine ⟨?_, fun xo E K => ?run⟩
  case run =>
    simp only [cc0__pairwise_l1exp_kernel_eq_skeleton]; unfold cc0__pairwise_l1exp_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hr | exact ho)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.RunLast.lean ====
/-
  The body at a point whose key coordinate is 3: as at a middle point, and then the accumulator's new contents
  are stored over the output block's buffer, whatever it held.
-/
import proofs.«152030_j712964571446_2_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the last case leaves in the output block's buffer and in the accumulator, with the body's triple. -/
noncomputable def runLast (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) :
    Σ' (LO : List (View.Piece (Elt F) S128x32 .f32)), { LS : List (View.Piece (Elt F) S128x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare acc
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_l1exp_kernel i arg2 harg2 arg3 harg3 arg4 harg4 arg5 harg5) K } := by
  refine ⟨?_, ?_, fun E K => ?run⟩
  case run =>
    simp only [cc0__pairwise_l1exp_kernel_eq_skeleton]; unfold cc0__pairwise_l1exp_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hr | exact ho)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Hand

end
-- ==== Proof.KI.Data.lean ====
/-
  The pipeline's proof data for the pairwise kernel. After the body at a point the accumulator holds what the
  point's case left in it: at a point with key coordinate 0 the sum over the first key tile on top of zeros, at a
  later point the previous contents plus the sum over this key tile; at key coordinate 3 the output block's buffer
  receives the accumulator. The state after each point is defined by recursion on the point, and the region's
  invariant carries the accumulator at that state. The array M feeds two windows, so each holds one half of it.
-/
import proofs.«152030_j712964571446_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

theorem coverFirst (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) (y : S128x32.Idx) : ∃ pc ∈ (runFirst c i arg2 harg2 arg3 harg3 arg4 harg4 arg5 harg5 hr ho x0 x1).1, y ∈ pc.1.set :=
  View.cover_of_tiledL (runFirst c i arg2 harg2 arg3 harg3 arg4 harg4 arg5 harg5 hr ho x0 x1).1 S128x32.size (by sl_kernel_rfl) y

/-- The accumulator after a point with key coordinate 0. -/
def accFirst (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) : Vec F S128x32 .f32 :=
  accV.read (Elt F) (accV.writes (Elt F) accV.junk (runFirst c i arg2 harg2 arg3 harg3 arg4 harg4 arg5 harg5 hr ho x0 x1).1)

theorem coverMid (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) (y : S128x32.Idx) : ∃ pc ∈ (runMid c i arg2 harg2 arg3 harg3 arg4 harg4 arg5 harg5 hr ho x0 x1 acc).1, y ∈ pc.1.set :=
  View.cover_of_tiledL (runMid c i arg2 harg2 arg3 harg3 arg4 harg4 arg5 harg5 hr ho x0 x1 acc).1 S128x32.size (by sl_kernel_rfl) y

/-- The accumulator after a point with key coordinate 1 or 2, found at `acc`. -/
def accMid (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) : Vec F S128x32 .f32 :=
  accV.read (Elt F) (accV.writes (Elt F) accV.junk (runMid c i arg2 harg2 arg3 harg3 arg4 harg4 arg5 harg5 hr ho x0 x1 acc).1)

theorem coverLastAcc (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) (y : S128x32.Idx) : ∃ pc ∈ (runLast c i arg2 harg2 arg3 harg3 arg4 harg4 arg5 harg5 hr ho x0 x1 acc).2.1, y ∈ pc.1.set :=
  View.cover_of_tiledL (runLast c i arg2 harg2 arg3 harg3 arg4 harg4 arg5 harg5 hr ho x0 x1 acc).2.1 S128x32.size (by sl_kernel_rfl) y

/-- The accumulator after a point with key coordinate 3, found at `acc`. -/
def accLast (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) : Vec F S128x32 .f32 :=
  accV.read (Elt F) (accV.writes (Elt F) accV.junk (runLast c i arg2 harg2 arg3 harg3 arg4 harg4 arg5 harg5 hr ho x0 x1 acc).2.1)

theorem coverLastOut (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) (y : S128x32.Idx) : ∃ pc ∈ (runLast c i arg2 harg2 arg3 harg3 arg4 harg4 arg5 harg5 hr ho x0 x1 acc).1, y ∈ pc.1.set :=
  View.cover_of_tiledL (runLast c i arg2 harg2 arg3 harg3 arg4 harg4 arg5 harg5 hr ho x0 x1 acc).1 S128x32.size (by sl_kernel_rfl) y

/-- The output block's buffer after a point with key coordinate 3. -/
def outLast (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) : Vec F S128x32 .f32 :=
  outV.read (Elt F) (outV.writes (Elt F) outV.junk (runLast c i arg2 harg2 arg3 harg3 arg4 harg4 arg5 harg5 hr ho x0 x1 acc).1)

/-- A placeholder for the output buffer at the points that leave it alone: nothing consults it. -/
def outIdle : Vec F S128x32 .f32 := outV.read (Elt F) outV.junk

/-! ## The state after each point -/

/-- The output block's buffer and the accumulator after the body at position `n`: the case the position selects
    (its residue modulo 4), run on the point's query and key tiles, the accumulator taken from position `n - 1`. -/
def stateAt (c : Dev nD) : (n : ℕ) → n < cfg0.N → Vec F S128x32 .f32 × Vec F S128x32 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondReset ⟨0, hn⟩).mpr (Nat.zero_mod _)) (fun h => (fun h => by (try dsimp only at h); omega) ((hcondOut ⟨0, hn⟩).mp h)) (iblk m c 0 ⟨0, hn⟩) (iblk m c 1 ⟨0, hn⟩))
  | n + 1, hn =>
    if h0 : (n + 1) % 4 = 0 then
      if h3 : (n + 1) % 4 = 3 then
        False.elim (by omega)
      else
        (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondReset ⟨n + 1, hn⟩).mpr h0) (fun h => h3 ((hcondOut ⟨n + 1, hn⟩).mp h)) (iblk m c 0 ⟨n + 1, hn⟩) (iblk m c 1 ⟨n + 1, hn⟩))
    else
      if h3 : (n + 1) % 4 = 3 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondReset ⟨n + 1, hn⟩).mp h)) ((hcondOut ⟨n + 1, hn⟩).mpr h3) (iblk m c 0 ⟨n + 1, hn⟩) (iblk m c 1 ⟨n + 1, hn⟩) (stateAt c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondReset ⟨n + 1, hn⟩).mp h)) ((hcondOut ⟨n + 1, hn⟩).mpr h3) (iblk m c 0 ⟨n + 1, hn⟩) (iblk m c 1 ⟨n + 1, hn⟩) (stateAt c n (Nat.lt_of_succ_lt hn)).2)
      else
        (outIdle, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondReset ⟨n + 1, hn⟩).mp h)) (fun h => h3 ((hcondOut ⟨n + 1, hn⟩).mp h)) (iblk m c 0 ⟨n + 1, hn⟩) (iblk m c 1 ⟨n + 1, hn⟩) (stateAt c n (Nat.lt_of_succ_lt hn)).2)

theorem stateAt_first (c : Dev nD) (t : Fin cfg0.N) (h0 : t.val % 4 = 0) (h3 : ¬t.val % 4 = 3) :
    stateAt m c t.val t.isLt = (outIdle, accFirst c (grid0.coords t) (ms0 t) (hs0 t) (ms1 t) (hs1 t) (ms2 t) (hs2 t) accM (Memref.isWhole_whole _) ((hcondReset t).mpr h0) (fun h => h3 ((hcondOut t).mp h)) (iblk m c 0 t) (iblk m c 1 t)) := by
  obtain ⟨n, hn⟩ := t
  cases n with
  | zero => exact rfl
  | succ n => exact (dif_pos h0).trans ((dif_neg h3).trans rfl)

theorem stateAt_mid (c : Dev nD) (t : Fin cfg0.N) (h0 : ¬t.val % 4 = 0) (h3 : ¬t.val % 4 = 3) :
    stateAt m c t.val t.isLt = (outIdle, accMid c (grid0.coords t) (ms0 t) (hs0 t) (ms1 t) (hs1 t) (ms2 t) (hs2 t) accM (Memref.isWhole_whole _) (fun h => h0 ((hcondReset t).mp h)) (fun h => h3 ((hcondOut t).mp h)) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg0.N) (h0 : ¬t.val % 4 = 0) (h3 : t.val % 4 = 3) :
    stateAt m c t.val t.isLt = (outLast c (grid0.coords t) (ms0 t) (hs0 t) (ms1 t) (hs1 t) (ms2 t) (hs2 t) accM (Memref.isWhole_whole _) (fun h => h0 ((hcondReset t).mp h)) ((hcondOut t).mpr h3) (iblk m c 0 t) (iblk m c 1 t) (stateAt m c (t.val - 1) (Nat.lt_of_le_of_lt (Nat.sub_le _ _) t.isLt)).2,
      accLast c (grid0.coords t) (ms0 t) (hs0 t) (ms1 t) (hs1 t) (ms2 t) (hs2 t) accM (Memref.isWhole_whole _) (fun h => h0 ((hcondReset t).mp h)) ((hcondOut t).mpr h3) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The region's invariant -/

/-- Before position `n`: at the region's entry the accumulator at anything; afterwards at what position `n - 1` left. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- On core `c`: the arrays as the region finds them; after the body each input's buffer at its block and the
    output's at the state's first component; the invariant above; nothing owed; the array M held in two halves, one
    per input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]

/-- The query tile's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- The key tile's buffer holds its block at every point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

end Cert.KernelIdeal.Hand

end
-- ==== Proof.KI.Body.lean ====
/-
  The body obligation of the pairwise kernel at every grid point. A point's residue modulo 4 is its key coordinate
  and selects the case; the input buffers hold their blocks; the invariant hands the body the accumulator at what
  the previous point left (at anything at the very first point) and takes it back at this point's contents; the
  output block's buffer is handed back untouched unless the key coordinate is 3.
-/
import proofs.«152030_j712964571446_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 16 := lt_of_lt_of_eq t.isLt (show cfg0.N = 16 from N_0)
  by_cases h0 : t.val % 4 = 0
  · have h3 : ¬t.val % 4 = 3 := by omega
    have hno : ¬condOut (grid0.coords t) := fun h => h3 ((hcondOut t).mp h)
    rw [Dat.leavesExact_idle (dats m 0 c) 2 t (idle2_of_not_out t hno) (noFlush2_of_not_out t hno)]
    rw [stateAt_first m c t h0 h3]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondReset t).mpr h0) hno (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondReset t).mpr h0) hno (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hnr : ¬condReset (grid0.coords t) := fun h => h0 ((hcondReset t).mp h)
    have hz : t.val ≠ 0 := fun h => h0 (by rw [h])
    by_cases h3 : t.val % 4 = 3
    · have hout : condOut (grid0.coords t) := (hcondOut t).mpr h3
      rw [show (dats m 0 c).leavesExact 2 t = owns (c : Thread nD τ) (ms2 t) fullShare ((dats m 0 c).after 2 t) from by
        unfold Dat.leavesExact; rw [live2_of_out t hout], after2]
      rw [stateAt_last m c t h0 h3]
      unfold outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ hnr hout (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · have hno : ¬condOut (grid0.coords t) := fun h => h3 ((hcondOut t).mp h)
      rw [Dat.leavesExact_idle (dats m 0 c) 2 t (idle2_of_not_out t hno) (noFlush2_of_not_out t hno)]
      rw [stateAt_mid m c t h0 h3]
      unfold accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ hnr hno (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Hand

end
-- ==== Proof.KI.Launch.lean ====
/-
  The launch of the pairwise kernel's region and the run of the whole program. The kernel's two input windows read
  one array, M, so the array's full share is dealt to them as two halves at the region's entry and put back together
  at its exit, where both halves still hold M's entry contents (an input array is never written); the output window
  holds its own array whole. The host lines after the region then run over all the unscoped buffers, at the entry
  contents except for the output array, which holds what the write-backs made of it.
-/
import proofs.«152030_j712964571446_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: M in two halves, the output array whole -/

/-- The buffers behind the windows' arrays are M and the output array. -/
theorem arr_image : (Finset.univ.image (Pipeline.arrRef spec0) : Finset (Ref sig .tc)) = {main_v11, main_v12} := by decide

/-- The pipeline's arrays at any contents: M's two halves and the output array. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v11) ↦{fullShare.left} G 0) ∗ (((c : Thread nD τ).loc main_v11) ↦{fullShare.right} G 1)
          ∗ (((c : Thread nD τ).loc main_v12) ↦{fullShare} G 2)) := by
  unfold Dat.arrays
  rw [bigSep_W0]
  rw [(arr_whole0 0).set_eq_univ, (arr_whole0 2).set_eq_univ]
  rfl

/-- The buffers behind the arrays, whole at the full share at `W`, are the pipeline's arrays at contents that agree
    with `W`: M's full share is the two halves the input windows hold. -/
theorem arrBufs_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v11) (h1 : G 1 = W main_v11) (h2 : G 2 = W main_v12) :
    (Pipeline.arrBufs spec0 c W : sProp 𝕄) ⊣⊢ (dats m 0 c).arrays G := by
  rw [arrays_chain, h0, h1, h2]
  unfold Pipeline.arrBufs
  rw [arr_image, bigSep_insert (by decide), bigSep_singleton]
  have hsh : ((((c : Thread nD τ).loc main_v11) ↦{fullShare} W main_v11) : sProp 𝕄)
      ⊣⊢ iprop((((c : Thread nD τ).loc main_v11) ↦{fullShare.left} W main_v11) ∗ (((c : Thread nD τ).loc main_v11) ↦{fullShare.right} W main_v11)) :=
    pointsTo_share (PosShare.mem_left_op_right fullShare)
  constructor
  · show iprop((((c : Thread nD τ).loc main_v11) ↦{fullShare} W main_v11) ∗ (((c : Thread nD τ).loc main_v12) ↦{fullShare} W main_v12)) ⊢ _
    iintro ⟨H11, H12⟩
    ihave H := hsh.1 $$ H11
    icases H with ⟨HL, HR⟩
    isplitl [HL]; · iexact HL
    isplitl [HR]; · iexact HR
    iexact H12
  · show _ ⊢ iprop((((c : Thread nD τ).loc main_v11) ↦{fullShare} W main_v11) ∗ (((c : Thread nD τ).loc main_v12) ↦{fullShare} W main_v12))
    iintro ⟨HL, HR, H12⟩
    isplitr [H12]
    · iapply hsh.2
      isplitl [HL]; · iexact HL
      iexact HR
    iexact H12

/-! ## The region's exit and the host lines after it -/

open Classical in
/-- A core's buffers when the region is left: as at its entry, but the output array at what the write-backs made of it. -/
def exitV (c : Dev nD) : Valuation τ sig (Elt F) :=
  Function.update (V0 m c) (Proc.devRef .tc main_v12) ((dats m 0 c).arrAt 2 cfg0.N)

/-- A core's buffers after the host lines that follow the region. -/
abbrev endV (c : Dev nD) : Valuation τ sig (Elt F) := StableHlo.after (List.flatten [hostOps1]) (exitV m c)
/-- The same, read at a TensorCore reference. -/
abbrev endR (c : Dev nD) (b : Ref sig .tc) : Buf (Elt F) ((c : Thread nD τ).loc b) := endV m c (Proc.devRef .tc b)

theorem exitV_out (c : Dev nD) : exitV m c (Proc.devRef .tc main_v12) = (dats m 0 c).arrAt 2 cfg0.N := by
  unfold exitV; exact Function.update_self ..

theorem exitV_of_ne (c : Dev nD) (b : Ref sig .tc) (hb : b ≠ main_v12) : exitV m c (Proc.devRef .tc b) = V m c b := by
  unfold exitV; exact Function.update_of_ne (StableHlo.devRef_ne_of_ne hb) _ _

/-- The host lines after the region write neither M nor the output array. -/
theorem tail_keeps (b : Ref sig .tc) (hb : b = main_v11 ∨ b = main_v12) :
    ∀ op ∈ (List.flatten [hostOps1] : List (HloOp τ sig (Elt F))), Proc.devRef (τ := τ) .tc b ∉ op.writes := by
  intro op hop
  simp only [List.flatten_cons, List.flatten_nil, List.append_nil, hostOps1, List.mem_cons, List.mem_nil_iff, or_false] at hop
  rcases hb with rfl | rfl <;> rcases hop with rfl | rfl | rfl | rfl | rfl | rfl | rfl | rfl | rfl | rfl | rfl | rfl | rfl | rfl | rfl | rfl | rfl | rfl | rfl <;>
    simp only [StableHlo.nullary_writes, StableHlo.unary_writes, StableHlo.binary_writes, Finset.mem_singleton] <;>
    exact StableHlo.devRef_ne_of_ne (by decide)

theorem endR_v11 (c : Dev nD) : endR m c main_v11 = V m c main_v11 :=
  (StableHlo.after_of_forall_not_mem _ _ (tail_keeps main_v11 (Or.inl rfl))).trans (exitV_of_ne m c main_v11 (by decide))

theorem endR_v12 (c : Dev nD) : endR m c main_v12 = (dats m 0 c).arrAt 2 cfg0.N :=
  (StableHlo.after_of_forall_not_mem _ _ (tail_keeps main_v12 (Or.inr rfl))).trans (exitV_out m c)

theorem arrAt0 (c : Dev nD) (n : ℕ) : (dats m 0 c).arrAt 0 n = V m c main_v11 :=
  ((dats m 0 c).arrAt_in 0 rfl n).trans (A_eq m c 0)
theorem arrAt1 (c : Dev nD) (n : ℕ) : (dats m 0 c).arrAt 1 n = V m c main_v11 :=
  ((dats m 0 c).arrAt_in 1 rfl n).trans (A_eq m c 1)

end Cert.KernelIdeal.Hand

end
-- ==== Proof.KI.Run.lean ====
/-
  The run of the whole program: the host lines, the pairwise kernel's region and the host lines after it. Every
  weakly fair execution terminates; each of the pipeline's arrays ends at what the write-backs made of it, and every
  other unscoped buffer at what the host lines after the region compute from the region's exit contents.
-/
import proofs.«152030_j712964571446_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The bypassing buffers hold the same at the region's exit as at its entry: only the output array differs. -/
theorem rest_exit (c : Dev nD) :
    (Pipeline.unscopedRest spec0 c (V m c) : sProp 𝕄) = Pipeline.unscopedRest spec0 c (fun b => exitV m c (Proc.devRef .tc b)) := by
  unfold Pipeline.unscopedRest
  refine bigSep_congr fun b hb => ?_
  have hne : b ≠ main_v12 := by
    rintro rfl
    exact (Finset.mem_sdiff.mp hb).2 (by decide)
  beta_reduce
  rw [exitV_of_ne m c b hne]

set_option backward.isDefEq.respectTransparency.types false in
/-- The host lines after the region: from the arrays at their final contents and the bypassing buffers at the entry
    contents, they run to the end, handing back the arrays and the bypassing buffers at `endR`. -/
theorem tail (𝒱₀ : Variants) (c : Dev nD) (Q' : PUnit → sProp 𝕄) :
    iprop((iprop((dats m 0 c).arrays ((dats m 0 c).arrAt · cfg0.N) ∗ Pipeline.unscopedRest spec0 c (endR m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c.tc : Thread nD τ) none) Set.univ
          (Pipeline.chain [StableHlo.seq hostOps1]) Q' := by
  rw [rest_exit]
  have hsub : ∀ ops ∈ ([hostOps1] : List (List (HloOp τ sig (Elt F)))), ∀ op ∈ ops, op.bufs ⊆ Pipeline.ucRefs τ sig := by
    intro ops hops op hop
    simp only [List.mem_cons, List.mem_nil_iff, or_false] at hops
    rcases hops with rfl
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    simp only [List.mem_cons, List.mem_nil_iff, or_false] at hops
    rcases hops with rfl
    exact (List.forall_iff_forall_mem.mp hostOps1_fresh) op hop
  iintro ⟨Hk, Hb, Ha, Hz⟩
  ihave Hab := (arrBufs_arrays m c (fun b => exitV m c (Proc.devRef .tc b)) _ ((arrAt0 m c _).trans (exitV_of_ne m c main_v11 (by decide)).symm)
    ((arrAt1 m c _).trans (exitV_of_ne m c main_v11 (by decide)).symm) (exitV_out m c).symm).2 $$ Ha
  ihave Hu := (Entails.of_eq (Pipeline.unscopedBufs_split₀ cfgs 0 winFacts₀0.arr_unscoped c (fun b => exitV m c (Proc.devRef .tc b))).symm) $$ [Hab Hz]
  · isplitl [Hab] <;> iassumption
  ihave Hh := (Entails.of_eq (Pipeline.unscopedBufs_held (Ix := Unit) (Name := ℕ) (U := UR sig nD τ) (Lvl := ℕ) c (exitV m c))) $$ Hu
  iapply (Pipeline.wp_seqs_then (pcfgs (F := F)) defs₀ 𝒱₀ c (Pipeline.ucRefs τ sig) [] [hostOps1] hsub hfresh (exitV m c)) $$ [Hb Hh]
  · isplitl [Hb] <;> iassumption
  iintro ⟨Hb, Hh⟩
  rw [Pipeline.chain_nil]
  iapply (le_wp_ret _ _ _ _ Q')
  iapply Hk
  ihave Hu := (Entails.of_eq (Pipeline.unscopedBufs_held (Ix := Unit) (Name := ℕ) (U := UR sig nD τ) (Lvl := ℕ) c (endV m c)).symm) $$ Hh
  ihave Hs := (Entails.of_eq (Pipeline.unscopedBufs_split₀ cfgs 0 winFacts₀0.arr_unscoped c (fun b => endV m c (Proc.devRef .tc b)))) $$ Hu
  icases Hs with ⟨Hab, Hz⟩
  isplitl [Hab]
  · iapply (arrBufs_arrays m c (endR m c) _ ((arrAt0 m c _).trans (endR_v11 m c).symm)
      ((arrAt1 m c _).trans (endR_v11 m c).symm) (endR_v12 m c).symm).1
    iexact Hab
  iexact Hz

/-! ## The run -/

/-- No table is prefetched: the one admissible contents. -/
abbrev adm : (p : Fin 1) → (pcfgs (F := F) p).Adm := fun p => (cfgs p).toPCfg_adm

set_option backward.isDefEq.respectTransparency.types false in
/-- From any memory with zero counters every weakly fair execution of the program terminates, nothing faulting; the
    pipeline's arrays end at what the write-backs made of them and every other unscoped buffer at `endR`. -/
theorem run_main : θ_run defs (onTc (τ := τ) (main (F := F))) (s₀ m ρ) (Pipeline.FramePost cfgs (dats m) 0 (endR m)) := by
  classical
  exact Pipeline.θ_run_region_pf_tail (pcfgs (F := F)) adm (dats m) () cellOf_inj 0 winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrBufs_arrays m c (V m c) _ (A_eq m c 0) (A_eq m c 1) (A_eq m c 2)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (endR m c))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail m Variants.none c Q')
    (QY := fun c s => ∀ b ∈ Pipeline.restRefsP sig Pipeline.Prefetch.none spec0, s.mem ((c.tc : Thread nD τ).loc b) = endR m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (endR m c) s')
      isplitl [HU] <;> iassumption)
    (hQ := fun s h c => ⟨(h c).1, Pipeline.rest_of_restP Pipeline.Prefetch.none spec0 (adm 0).1 c (endR m c) s (fun k => k.elim0) (h c).2.1 (h c).2.2⟩)

/-- info: 'Cert.KernelIdeal.Hand.run_main' depends on axioms: [propext, Classical.choice, Quot.sound] -/
#guard_msgs in #print axioms run_main

end Cert.KernelIdeal.Hand

end
-- ==== Proof.KI.Frame.lean ====
/-
  The frame of the program around the pairwise kernel: no host line and no write-back touches an argument array, so
  each ends as it was launched.
-/
import proofs.«152030_j712964571446_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_arg0 (c : Dev nD) : V m c main_arg0 = m ((c : Thread nD τ).loc main_arg0) := by
  dsimp only [V, V0, prefixOps]
  simp only [hostOps0, hostOps0_1, hostOps0_2, hostOps0_3, hostOps0_4, List.flatten_cons, List.flatten_nil, List.append_nil, List.cons_append, List.nil_append]
  after_results

theorem endR_arg0 (c : Dev nD) : endR m c main_arg0 = m ((c : Thread nD τ).loc main_arg0) := by
  dsimp only [endR, endV]
  simp only [hostOps1, List.flatten_cons, List.flatten_nil, List.append_nil]
  after_results
  exact (exitV_of_ne m c main_arg0 (by decide)).trans (V_arg0 m c)

theorem V_arg1 (c : Dev nD) : V m c main_arg1 = m ((c : Thread nD τ).loc main_arg1) := by
  dsimp only [V, V0, prefixOps]
  simp only [hostOps0, hostOps0_1, hostOps0_2, hostOps0_3, hostOps0_4, List.flatten_cons, List.flatten_nil, List.append_nil, List.cons_append, List.nil_append]
  after_results

theorem endR_arg1 (c : Dev nD) : endR m c main_arg1 = m ((c : Thread nD τ).loc main_arg1) := by
  dsimp only [endR, endV]
  simp only [hostOps1, List.flatten_cons, List.flatten_nil, List.append_nil]
  after_results
  exact (exitV_of_ne m c main_arg1 (by decide)).trans (V_arg1 m c)

theorem V_arg2 (c : Dev nD) : V m c main_arg2 = m ((c : Thread nD τ).loc main_arg2) := by
  dsimp only [V, V0, prefixOps]
  simp only [hostOps0, hostOps0_1, hostOps0_2, hostOps0_3, hostOps0_4, List.flatten_cons, List.flatten_nil, List.append_nil, List.cons_append, List.nil_append]
  after_results

theorem endR_arg2 (c : Dev nD) : endR m c main_arg2 = m ((c : Thread nD τ).loc main_arg2) := by
  dsimp only [endR, endV]
  simp only [hostOps1, List.flatten_cons, List.flatten_nil, List.append_nil]
  after_results
  exact (exitV_of_ne m c main_arg2 (by decide)).trans (V_arg2 m c)

theorem V_arg3 (c : Dev nD) : V m c main_arg3 = m ((c : Thread nD τ).loc main_arg3) := by
  dsimp only [V, V0, prefixOps]
  simp only [hostOps0, hostOps0_1, hostOps0_2, hostOps0_3, hostOps0_4, List.flatten_cons, List.flatten_nil, List.append_nil, List.cons_append, List.nil_append]
  after_results

theorem endR_arg3 (c : Dev nD) : endR m c main_arg3 = m ((c : Thread nD τ).loc main_arg3) := by
  dsimp only [endR, endV]
  simp only [hostOps1, List.flatten_cons, List.flatten_nil, List.append_nil]
  after_results
  exact (exitV_of_ne m c main_arg3 (by decide)).trans (V_arg3 m c)

theorem V_arg4 (c : Dev nD) : V m c main_arg4 = m ((c : Thread nD τ).loc main_arg4) := by
  dsimp only [V, V0, prefixOps]
  simp only [hostOps0, hostOps0_1, hostOps0_2, hostOps0_3, hostOps0_4, List.flatten_cons, List.flatten_nil, List.append_nil, List.cons_append, List.nil_append]
  after_results

theorem endR_arg4 (c : Dev nD) : endR m c main_arg4 = m ((c : Thread nD τ).loc main_arg4) := by
  dsimp only [endR, endV]
  simp only [hostOps1, List.flatten_cons, List.flatten_nil, List.append_nil]
  after_results
  exact (exitV_of_ne m c main_arg4 (by decide)).trans (V_arg4 m c)

theorem V_arg5 (c : Dev nD) : V m c main_arg5 = m ((c : Thread nD τ).loc main_arg5) := by
  dsimp only [V, V0, prefixOps]
  simp only [hostOps0, hostOps0_1, hostOps0_2, hostOps0_3, hostOps0_4, List.flatten_cons, List.flatten_nil, List.append_nil, List.cons_append, List.nil_append]
  after_results

theorem endR_arg5 (c : Dev nD) : endR m c main_arg5 = m ((c : Thread nD τ).loc main_arg5) := by
  dsimp only [endR, endV]
  simp only [hostOps1, List.flatten_cons, List.flatten_nil, List.append_nil]
  after_results
  exact (exitV_of_ne m c main_arg5 (by decide)).trans (V_arg5 m c)

theorem V_arg6 (c : Dev nD) : V m c main_arg6 = m ((c : Thread nD τ).loc main_arg6) := by
  dsimp only [V, V0, prefixOps]
  simp only [hostOps0, hostOps0_1, hostOps0_2, hostOps0_3, hostOps0_4, List.flatten_cons, List.flatten_nil, List.append_nil, List.cons_append, List.nil_append]
  after_results

theorem endR_arg6 (c : Dev nD) : endR m c main_arg6 = m ((c : Thread nD τ).loc main_arg6) := by
  dsimp only [endR, endV]
  simp only [hostOps1, List.flatten_cons, List.flatten_nil, List.append_nil]
  after_results
  exact (exitV_of_ne m c main_arg6 (by decide)).trans (V_arg6 m c)

theorem V_arg7 (c : Dev nD) : V m c main_arg7 = m ((c : Thread nD τ).loc main_arg7) := by
  dsimp only [V, V0, prefixOps]
  simp only [hostOps0, hostOps0_1, hostOps0_2, hostOps0_3, hostOps0_4, List.flatten_cons, List.flatten_nil, List.append_nil, List.cons_append, List.nil_append]
  after_results

theorem endR_arg7 (c : Dev nD) : endR m c main_arg7 = m ((c : Thread nD τ).loc main_arg7) := by
  dsimp only [endR, endV]
  simp only [hostOps1, List.flatten_cons, List.flatten_nil, List.append_nil]
  after_results
  exact (exitV_of_ne m c main_arg7 (by decide)).trans (V_arg7 m c)

/-- The program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide)).trans (endR_arg0 m c), ((h c).2 main_arg1 (by decide)).trans (endR_arg1 m c), ((h c).2 main_arg2 (by decide)).trans (endR_arg2 m c), ((h c).2 main_arg3 (by decide)).trans (endR_arg3 m c), ((h c).2 main_arg4 (by decide)).trans (endR_arg4 m c), ((h c).2 main_arg5 (by decide)).trans (endR_arg5 m c), ((h c).2 main_arg6 (by decide)).trans (endR_arg6 m c), ((h c).2 main_arg7 (by decide)).trans (endR_arg7 m c)⟩) (run_main m ρ)

end Cert.KernelIdeal.Hand

end
-- ==== Proof.KI.Pieces.lean ====
/-
  What each case of the pairwise kernel's body leaves behind, as a value: the accumulator ends at the accumulator
  it was handed plus the (query tile, key tile) pair's partial sums — at key coordinate 0 the handed accumulator is the
  zero block the body has just stored — and at key coordinate 3 the output block's buffer receives that same value.
-/
import proofs.«152030_j712964571446_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- An accumulator plus one (query tile, key tile) pair's partial sums: the body's store into the accumulator, as one
    term of the two tiles and the accumulator it read. -/
def addTile (x0 x1 : Vec F S128x32x16 .f32) (acc : Vec F S128x32 .f32) : Vec F S128x32 .f32 :=
  k0_pay1 (k0_pay3 x0) (k0_pay4 x1) (k0_pay10 (k0_pay3 x0) (k0_pay4 x1) (k0_pay8 (k0_pay3 x0) (k0_pay4 x1) (k0_pay5 x0 x1) (k0_pay6 x1) (k0_pay7 x0)) (k0_pay9 (k0_pay3 x0))) (k0_pay11 (k0_pay3 x0)) (k0_pay12 (k0_pay4 x1)) acc

/-- The zero block the reset stores. -/
abbrev zeroAcc : Vec F S128x32 .f32 := k0_pay2

theorem accMid_eq (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : ¬condOut i)
    (x0 x1 : Vec F S128x32x16 .f32) (acc : Vec F S128x32 .f32) :
    accMid c i arg2 harg2 arg3 harg3 arg4 harg4 arg5 harg5 hr ho x0 x1 acc = addTile x0 x1 acc := by
  unfold accMid
  rw [View.read_writes_eq_canon _ _ _ (coverMid c i arg2 harg2 arg3 harg3 arg4 harg4 arg5 harg5 hr ho x0 x1 acc)]
  unfold runMid
  dsimp only
  sl_unfold_words
  rw [View.canon_unit_zero hz2]
  unfold addTile
  simp only [View.readAt_eq_ld, harg2.read_unread, harg3.read_unread, harg5.read_unread, View.ld_unit_zero (S := S128x32x16) hz3, View.ld_unit_zero (S := S128x32) hz2]

theorem accFirst_eq (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : condReset i) (ho : ¬condOut i)
    (x0 x1 : Vec F S128x32x16 .f32) :
    accFirst c i arg2 harg2 arg3 harg3 arg4 harg4 arg5 harg5 hr ho x0 x1 = addTile x0 x1 zeroAcc := by
  unfold accFirst
  rw [View.read_writes_eq_canon _ _ _ (coverFirst c i arg2 harg2 arg3 harg3 arg4 harg4 arg5 harg5 hr ho x0 x1)]
  unfold runFirst
  dsimp only
  sl_unfold_words
  rw [View.canon_cons_unit_zero (S := S128x32) hz2]
  unfold addTile
  simp only [View.readAt_eq_ld, harg2.read_unread, harg3.read_unread, View.ld_unit_zero (S := S128x32x16) hz3, View.ld_unit_zero (S := S128x32) hz2, View.readCov_unit_zero (S := S128x32) _ hz2]

theorem accLast_eq (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) :
    accLast c i arg2 harg2 arg3 harg3 arg4 harg4 arg5 harg5 hr ho x0 x1 acc = addTile x0 x1 acc := by
  unfold accLast
  rw [View.read_writes_eq_canon _ _ _ (coverLastAcc c i arg2 harg2 arg3 harg3 arg4 harg4 arg5 harg5 hr ho x0 x1 acc)]
  unfold runLast
  dsimp only
  sl_unfold_words
  rw [View.canon_unit_zero hz2]
  unfold addTile
  simp only [View.readAt_eq_ld, harg2.read_unread, harg3.read_unread, harg5.read_unread, View.ld_unit_zero (S := S128x32x16) hz3, View.ld_unit_zero (S := S128x32) hz2]

theorem outLast_eq (c : Dev nD) (i : grid0.Coords) (arg2 : Memref sig .tc .vmem S128x32x16 .f32) (harg2 : arg2.IsWhole) (arg3 : Memref sig .tc .vmem S128x32x16 .f32) (harg3 : arg3.IsWhole) (arg4 : Memref sig .tc .vmem S128x32 .f32) (harg4 : arg4.IsWhole) (arg5 : Memref sig .tc .vmem S128x32 .f32) (harg5 : arg5.IsWhole) (hr : ¬condReset i) (ho : condOut i)
    (x0 x1 : Vec F S128x32x16 .f32) (acc : Vec F S128x32 .f32) :
    outLast c i arg2 harg2 arg3 harg3 arg4 harg4 arg5 harg5 hr ho x0 x1 acc = addTile x0 x1 acc := by
  unfold outLast
  rw [View.read_writes_eq_canon _ _ _ (coverLastOut c i arg2 harg2 arg3 harg3 arg4 harg4 arg5 harg5 hr ho x0 x1 acc)]
  unfold runLast
  dsimp only
  sl_unfold_words
  rw [View.canon_unit_zero hz2]
  unfold addTile
  simp only [View.readAt_eq_ld, harg2.read_unread, harg3.read_unread, harg5.read_unread, View.ld_unit_zero (S := S128x32x16) hz3, View.ld_unit_zero (S := S128x32) hz2, View.readCov_unit_zero (S := S128x32) _ hz2]

end Cert.KernelIdeal.Hand

end
-- ==== Proof.KI.Chain.lean ====
/-
  The accumulator of the pairwise kernel as a fold over the grid's points: at a point whose key coordinate is 0 it is
  the pair's contribution on top of the zero block; at any other point the previous point's accumulator plus this
  pair's contribution. At key coordinate 3 the output block's buffer receives it. By induction on the point.
-/
import proofs.«152030_j712964571446_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator after the body at position `n`. -/
def accAt (c : Dev nD) : (n : ℕ) → n < cfg0.N → Vec F S128x32 .f32
  | 0, h => addTile (iblk m c 0 ⟨0, h⟩) (iblk m c 1 ⟨0, h⟩) zeroAcc
  | n + 1, h =>
    if (n + 1) % 4 = 0 then addTile (iblk m c 0 ⟨n + 1, h⟩) (iblk m c 1 ⟨n + 1, h⟩) zeroAcc
    else addTile (iblk m c 0 ⟨n + 1, h⟩) (iblk m c 1 ⟨n + 1, h⟩) (accAt c n (Nat.lt_of_succ_lt h))

/-- The state's accumulator component is that fold. -/
theorem state_acc (c : Dev nD) : ∀ (n : ℕ) (h : n < cfg0.N), (stateAt m c n h).2 = accAt m c n h
  | 0, h => by
    rw [stateAt_first m c ⟨0, h⟩ rfl (by show ¬0 % 4 = 3; decide)]
    dsimp only
    rw [accFirst_eq]; rfl
  | n + 1, h => by
    by_cases h0 : (n + 1) % 4 = 0
    · have h3 : ¬(n + 1) % 4 = 3 := by omega
      rw [stateAt_first m c ⟨n + 1, h⟩ h0 h3]
      dsimp only
      rw [accFirst_eq]; unfold accAt; rw [if_pos h0]
    · by_cases h3 : (n + 1) % 4 = 3
      · rw [stateAt_last m c ⟨n + 1, h⟩ h0 h3]
        dsimp only
        rw [accLast_eq]; unfold accAt; rw [if_neg h0]
        show addTile _ _ (stateAt m c n _).2 = addTile _ _ (accAt m c n _)
        rw [state_acc c n]
      · rw [stateAt_mid m c ⟨n + 1, h⟩ h0 h3]
        dsimp only
        rw [accMid_eq]; unfold accAt; rw [if_neg h0]
        show addTile _ _ (stateAt m c n _).2 = addTile _ _ (accAt m c n _)
        rw [state_acc c n]

/-- At a point whose key coordinate is 3 the output block's buffer holds the accumulator. -/
theorem state_out (c : Dev nD) (t : Fin cfg0.N) (h3 : t.val % 4 = 3) :
    (stateAt m c t.val t.isLt).1 = accAt m c t.val t.isLt := by
  have h0 : ¬t.val % 4 = 0 := by omega
  rw [← state_acc, stateAt_last m c t h0 h3]
  dsimp only
  rw [outLast_eq, accLast_eq]

end Cert.KernelIdeal.Hand

end
-- ==== Proof.KI.Layout.lean ====
/-
  The layout steps of the pairwise kernel's body, read at an index. For channel n the body slices the query tile
  [128, 32, 16] at channel n, drops the unit axis, inserts a unit key axis and broadcasts along it: at (q, k, b) that is
  the query tile at (q, b, n). The key tile goes the same way with the unit axis in front: at (q, k, b) it is the key
  tile at (k, b, n). The sum over the key axis of a [128, 128, 32] vector at (q, b) is the sum over k of its entries
  at (q, k, b).
-/
import proofs.«152030_j712964571446_2_alg».proof.Proof.KI.Pieces
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Layout
variable {α : Type}

/-- The query side of channel `n`, at (q, k, b): the tile at (q, b, n). -/
theorem qside (n : ℕ) (hn : n < 16) (v : S128x32x16.Idx → α) (hs : S128x32x16.Slices ![0, 0, n] S128x32x1)
    (h1 : S128x32x1.ShapeCasts S128x32) (h2 : S128x32.ShapeCasts S128x1x32) (h3 : S128x1x32.Broadcasts S128x128x32)
    (q k : Fin 128) (b : Fin 32) :
    broadcastTo S128x128x32 (shapeCast S128x1x32 (shapeCast S128x32 (extractStridedSlice S128x32x1 ![0, 0, n] v hs) h1) h2) h3 (ix3 q k b)
      = v (ix3 q b ⟨n, hn⟩) := by
  refine (broadcastTo_apply _ h3 (ix3 q k b) (ix3 q (0 : Fin 1) b) fun a => ?_).trans ?_
  · match a with
    | ⟨0, _⟩ => show q.val = if (128 : Nat) = 1 then 0 else q.val; rw [if_neg (by decide)]
    | ⟨1, _⟩ => show (0 : Nat) = if (1 : Nat) = 1 then 0 else k.val; rw [if_pos rfl]
    | ⟨2, _⟩ => show b.val = if (32 : Nat) = 1 then 0 else b.val; rw [if_neg (by decide)]
  refine (shapeCast_apply _ h2 (ix3 q (0 : Fin 1) b) (ix2 q b) ?_).trans ?_
  · rw [Shape.rowMajor_val_two, Shape.rowMajor_val_three]; show q.val * 32 + b.val = (q.val * 1 + 0) * 32 + b.val; omega
  refine (shapeCast_apply _ h1 (ix2 q b) (ix3 q b (0 : Fin 1)) ?_).trans ?_
  · rw [Shape.rowMajor_val_two, Shape.rowMajor_val_three]; show (q.val * 32 + b.val) * 1 + 0 = q.val * 32 + b.val; omega
  exact extractStridedSlice_apply _ v hs (ix3 q b (0 : Fin 1)) (ix3 q b ⟨n, hn⟩) fun a => by
    match a with
    | ⟨0, _⟩ => show q.val = 0 + q.val; omega
    | ⟨1, _⟩ => show b.val = 0 + b.val; omega
    | ⟨2, _⟩ => show n = n + 0; omega

/-- The key side of channel `n`, at (q, k, b): the tile at (k, b, n). -/
theorem kside (n : ℕ) (hn : n < 16) (v : S128x32x16.Idx → α) (hs : S128x32x16.Slices ![0, 0, n] S128x32x1)
    (h1 : S128x32x1.ShapeCasts S128x32) (h2 : S128x32.ShapeCasts S1x128x32) (h3 : S1x128x32.Broadcasts S128x128x32)
    (q k : Fin 128) (b : Fin 32) :
    broadcastTo S128x128x32 (shapeCast S1x128x32 (shapeCast S128x32 (extractStridedSlice S128x32x1 ![0, 0, n] v hs) h1) h2) h3 (ix3 q k b)
      = v (ix3 k b ⟨n, hn⟩) := by
  refine (broadcastTo_apply _ h3 (ix3 q k b) (ix3 (0 : Fin 1) k b) fun a => ?_).trans ?_
  · match a with
    | ⟨0, _⟩ => show (0 : Nat) = if (1 : Nat) = 1 then 0 else q.val; rw [if_pos rfl]
    | ⟨1, _⟩ => show k.val = if (128 : Nat) = 1 then 0 else k.val; rw [if_neg (by decide)]
    | ⟨2, _⟩ => show b.val = if (32 : Nat) = 1 then 0 else b.val; rw [if_neg (by decide)]
  refine (shapeCast_apply _ h2 (ix3 (0 : Fin 1) k b) (ix2 k b) ?_).trans ?_
  · rw [Shape.rowMajor_val_two, Shape.rowMajor_val_three]; show k.val * 32 + b.val = (0 * 128 + k.val) * 32 + b.val; omega
  refine (shapeCast_apply _ h1 (ix2 k b) (ix3 k b (0 : Fin 1)) ?_).trans ?_
  · rw [Shape.rowMajor_val_two, Shape.rowMajor_val_three]; show (k.val * 32 + b.val) * 1 + 0 = k.val * 32 + b.val; omega
  exact extractStridedSlice_apply _ v hs (ix3 k b (0 : Fin 1)) (ix3 k b ⟨n, hn⟩) fun a => by
    match a with
    | ⟨0, _⟩ => show k.val = 0 + k.val; omega
    | ⟨1, _⟩ => show b.val = 0 + b.val; omega
    | ⟨2, _⟩ => show n = n + 0; omega

end Layout

/-- The sum over the key axis, at (q, b): the sum over k of the entries at (q, k, b). -/
theorem lane_sum (src : FVec Ideal S128x128x32 .f32) (h : S128x128x32.Reduces [1] S128x32) (hφ : FKind.Formats .f32)
    (hacc : (0x00000000#32 : BitVec 32) = 0x00000000#32) (q : Fin 128) (b : Fin 32) :
    multiReduction .add [1] S128x32 src 0x00000000#32 h hφ hacc (ix2 q b) = ∑ k : Fin 128, src (ix3 q k b) := by
  refine (Ideal.multiReduction_add_single src 0x00000000#32 h hφ hacc (ix2 q b)).trans ?_
  refine Finset.sum_congr rfl fun k _ => congrArg src (funext fun a => ?_)
  match a with
  | ⟨0, _⟩ => rfl
  | ⟨1, _⟩ => rfl
  | ⟨2, _⟩ => rfl

end Cert.KernelIdeal.Hand

end
-- ==== Proof.Spec.lean ====
/-
  The mathematics of the pairwise L1-exp sum, apart from any program. For an array M of 512 rows, 32 heads and 16
  channels, the weight of the pair (Q, r) at head b is exp of minus the L1 distance, over the channels, between row Q
  and row r; the result at (Q, b) is the sum of the weights over all 512 rows r. One side adds the sixteen channel
  terms one after the other onto a zero and negates by subtracting from zero, and adds up the rows 128 at a time,
  tile sum after tile sum onto a zero; the other takes each sum at once. On the extended reals addition is
  commutative and associative with 0 neutral, and 0 - x = -x, so the two agree, whatever M holds.
-/
import Idealize.ShloMosaic.PureOps.Ideal
import Idealize.ShloMosaic.PureOps.Ideal.Laws
import Idealize.ShloMosaic.Lib.ValueIdx
import Mathlib.Algebra.BigOperators.Fin

noncomputable section

namespace Cert.PairSpec

open Idealize.ShloMosaic Idealize.ShloMosaic.ValueIdx
open scoped BigOperators

/-- The zero word, as an extended real. -/
abbrev Z : EReal := Ideal.ofBits .f32 0x00000000#32
theorem Z_zero : Z = 0 := Ideal.ofBits_zero_f32

/-- The absolute value, as both programs compute it. -/
def absE (x : EReal) : EReal := max x (-x)

/-- Sixteen terms added one after the other onto the zero word. -/
def chain16 (a : Fin 16 → EReal) : EReal := (((((((((((((((Z + a 0) + a 1) + a 2) + a 3) + a 4) + a 5) + a 6) + a 7) + a 8) + a 9) + a 10) + a 11) + a 12) + a 13) + a 14) + a 15

theorem chain16_eq_sum (a : Fin 16 → EReal) : chain16 a = ∑ c, a c := by
  unfold chain16; rw [Z_zero]
  symm
  simp only [Fin.sum_univ_castSucc, Fin.sum_univ_zero]
  rfl

/-- An array of 512 rows, 32 heads, 16 channels. -/
abbrev Arr := (⟨3, ![512, 32, 16]⟩ : Shape).Idx → EReal

/-- Row `k` of the `j`-th tile of 128 rows. -/
def rowOf (j k : ℕ) : Fin 512 := ⟨(128 * j + k) % 512, Nat.mod_lt _ (by decide)⟩

/-- The weight of the pair of rows (Q, r) at head b, in the tiled side's spelling. -/
def weight (M : Arr) (Q r : Fin 512) (b : Fin 32) : EReal :=
  Ideal.exp (Z - chain16 fun c => absE (M (ix3 Q b c) - M (ix3 r b c)))

/-- The weights of row Q against the 128 rows of tile j. -/
def tileSum (M : Arr) (Q : Fin 512) (b : Fin 32) (j : ℕ) : EReal := ∑ k : Fin 128, weight M Q (rowOf j k) b

/-- The tile sums added one after the other onto the zero word, up to tile j. -/
def psum (M : Arr) (Q : Fin 512) (b : Fin 32) : ℕ → EReal
  | 0 => Z + tileSum M Q b 0
  | j + 1 => psum M Q b j + tileSum M Q b (j + 1)

/-- The whole sum at once, in the untiled side's spelling. -/
def gAt (M : Arr) (Q : Fin 512) (b : Fin 32) : EReal :=
  Z + ∑ r : Fin 512, Ideal.exp (-(Z + ∑ c : Fin 16, absE (M (ix3 Q b c) - M (ix3 r b c))))

theorem weight_eq (M : Arr) (Q r : Fin 512) (b : Fin 32) :
    weight M Q r b = Ideal.exp (-(Z + ∑ c : Fin 16, absE (M (ix3 Q b c) - M (ix3 r b c)))) := by
  unfold weight
  rw [chain16_eq_sum, Z_zero, zero_sub, zero_add]

/-- A sum over 512 rows is the sum over the four tiles of the sums over each tile's 128 rows. -/
theorem sum_tiles (f : Fin 512 → EReal) : ∑ r : Fin 512, f r = ∑ j : Fin 4, ∑ k : Fin 128, f (rowOf j k) := by
  have e : ∑ r : Fin 512, f r = ∑ p : Fin 4 × Fin 128, f (finProdFinEquiv p) :=
    (Equiv.sum_comp (finProdFinEquiv (m := 4) (n := 128)) f).symm
  rw [e, Fintype.sum_prod_type]
  refine Finset.sum_congr rfl fun j _ => Finset.sum_congr rfl fun k _ => congrArg f (Fin.ext ?_)
  show k.val + 128 * j.val = (128 * j.val + k.val) % 512
  have hj := j.isLt; have hk := k.isLt
  omega

theorem psum_three (M : Arr) (Q : Fin 512) (b : Fin 32) : psum M Q b 3 = gAt M Q b := by
  unfold gAt
  rw [sum_tiles, Fin.sum_univ_four]
  simp only [psum, tileSum, weight_eq, Z_zero, zero_add]
  rfl

/-- The result array, 512 rows by 32 heads, as one function of M. -/
def G (M : Arr) : (⟨2, ![512, 32]⟩ : Shape).Idx → EReal :=
  fun i => gAt M ⟨(i 0).val, idx2_lt0 i⟩ ⟨(i 1).val, idx2_lt1 i⟩

/-- The same array in the tiled side's spelling: the four tile sums added one after the other. -/
def Gk (M : Arr) : (⟨2, ![512, 32]⟩ : Shape).Idx → EReal :=
  fun i => psum M ⟨(i 0).val, idx2_lt0 i⟩ ⟨(i 1).val, idx2_lt1 i⟩ 3

theorem Gk_eq_G (M : Arr) : Gk M = G M := funext fun _ => psum_three ..

end Cert.PairSpec

end
-- ==== Proof.KI.Tile.lean ====
/-
  One (query tile, key tile) pair's contribution, read at an index: the body adds to the accumulator at (q, b) the sum,
  over the 128 rows k of the key tile, of exp of zero minus the sixteen channel terms |x0(q, b, c) - x1(k, b, c)| added
  one after the other onto a zero.
-/
import proofs.«152030_j712964571446_2_alg».proof.Proof.KI.Layout
import proofs.«152030_j712964571446_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.PairSpec

/-- The absolute value of a vector, at an index. -/
theorem absf_at {s : Shape} {φ : FTy} (a : FVec Ideal s φ) (i : s.Idx) : absf a i = absE (a i) := rfl

set_option maxHeartbeats 1600000 in
theorem addTile_apply (x0 x1 : Vec Ideal S128x32x16 .f32) (acc : Vec Ideal S128x32 .f32) (q : Fin 128) (b : Fin 32) :
    addTile (F := Ideal) x0 x1 acc (ix2 q b)
      = acc (ix2 q b) + ∑ k : Fin 128, Ideal.exp (Z - chain16 fun c => absE (x0 (ix3 q b c) - x1 (ix3 k b c))) := by
  unfold addTile k0_pay1 k0_pay3 k0_pay4 k0_pay5 k0_pay6 k0_pay7 k0_pay8 k0_pay9 k0_pay10 k0_pay11 k0_pay12
  simp only [shapeCast_self]
  refine congrArg (acc (ix2 q b) + ·) ?_
  refine (lane_sum _ _ _ _ q b).trans ?_
  refine Finset.sum_congr rfl fun k _ => ?_
  show Ideal.exp (Z - _) = _
  refine congrArg (fun d => Ideal.exp (Z - d)) ?_
  unfold chain16
  simp only [addf_apply, absf_at, subf_apply, qside 0 (by decide), qside 1 (by decide), qside 2 (by decide), qside 3 (by decide), qside 4 (by decide), qside 5 (by decide), qside 6 (by decide), qside 7 (by decide), qside 8 (by decide), qside 9 (by decide), qside 10 (by decide), qside 11 (by decide), qside 12 (by decide), qside 13 (by decide), qside 14 (by decide), qside 15 (by decide), kside 0 (by decide), kside 1 (by decide), kside 2 (by decide), kside 3 (by decide), kside 4 (by decide), kside 5 (by decide), kside 6 (by decide), kside 7 (by decide), kside 8 (by decide), kside 9 (by decide), kside 10 (by decide), kside 11 (by decide), kside 12 (by decide), kside 13 (by decide), kside 14 (by decide), kside 15 (by decide)]
  unfold k0_pay3 k0_pay4
  simp only [shapeCast_self]
  rfl

end Cert.KernelIdeal.Hand

end
-- ==== Proof.KI.Acc.lean ====
/-
  The accumulator read at an index, and the output array after the run. The query tile of point t is rows
  128·(t / 4) + q of M and the key tile rows 128·(t mod 4) + k, so after the point with key coordinate j the
  accumulator at (q, b) holds the tile sums of row Q = 128·(t / 4) + q against tiles 0 … j, added one after the other
  onto the zero word. The output block written back at key coordinate 3 is therefore block t / 4 of one function of M,
  and these blocks cover the output array.
-/
import proofs.«152030_j712964571446_2_alg».proof.Proof.KI.Chain
import proofs.«152030_j712964571446_2_alg».proof.Proof.KI.Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.PairSpec

/-- The block indices of the three windows, decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val % 4 ∧ win0_1.index t (1 : Fin 3) = 0 ∧ win0_1.index t (2 : Fin 3) = 0
    ∧ win0_2.index t (0 : Fin 2) = t.val / 4 ∧ win0_2.index t (1 : Fin 2) = 0 :=
  (by decide +kernel : ∀ t : Fin grid0.N, _)

section Blocks
variable {F : FTy → Type} [FloatOps F] (m : (ℓ : Loc nD τ sig) → Buf (Elt F) ℓ)

/-- The query tile at point t is rows 128·(t / 4) + q of M. -/
theorem iblk0_apply (c : Dev nD) (t : Fin cfg0.N) (q : Fin 128) (b : Fin 32) (ch : Fin 16) :
    iblk m c 0 t (ix3 q b ch) = V m c main_v11 (ix3 (rowOf (t.val / 4) q.val) b ch) := by
  obtain ⟨e0, e1, e2, -⟩ := idx_facts t
  have hN : cfg0.N = 16 := N_0
  show V m c main_v11 (((cfg0.win 0).blk t).view.emb (ix3 q b ch)) = _
  refine congrArg (V m c main_v11 : S512x32x16.Idx → Elt F .f32) (funext fun a => Fin.ext ?_)
  match a with
  | ⟨0, _⟩ => show win0_0.index t (0 : Fin 3) * 128 + 1 * q.val = (128 * (t.val / 4) + q.val) % 512; have := t.isLt; have := q.isLt; omega
  | ⟨1, _⟩ => show win0_0.index t (1 : Fin 3) * 32 + 1 * b.val = b.val; omega
  | ⟨2, _⟩ => show win0_0.index t (2 : Fin 3) * 16 + 1 * ch.val = ch.val; omega

/-- The key tile at point t is rows 128·(t mod 4) + k of M. -/
theorem iblk1_apply (c : Dev nD) (t : Fin cfg0.N) (k : Fin 128) (b : Fin 32) (ch : Fin 16) :
    iblk m c 1 t (ix3 k b ch) = V m c main_v11 (ix3 (rowOf (t.val % 4) k.val) b ch) := by
  obtain ⟨-, -, -, e0, e1, e2, -⟩ := idx_facts t
  show V m c main_v11 (((cfg0.win 1).blk t).view.emb (ix3 k b ch)) = _
  refine congrArg (V m c main_v11 : S512x32x16.Idx → Elt F .f32) (funext fun a => Fin.ext ?_)
  match a with
  | ⟨0, _⟩ => show win0_1.index t (0 : Fin 3) * 128 + 1 * k.val = (128 * (t.val % 4) + k.val) % 512; have := k.isLt; omega
  | ⟨1, _⟩ => show win0_1.index t (1 : Fin 3) * 32 + 1 * b.val = b.val; omega
  | ⟨2, _⟩ => show win0_1.index t (2 : Fin 3) * 16 + 1 * ch.val = ch.val; omega

end Blocks

variable (m : (ℓ : Loc nD τ sig) → Buf (Elt Ideal) ℓ)

/-- M as the region finds it. -/
abbrev Mk (c : Dev nD) : Arr := V m c main_v11

theorem zeroAcc_apply (i : S128x32.Idx) : zeroAcc (F := Ideal) i = Z := by
  unfold zeroAcc k0_pay2
  rw [shapeCast_self]
  rfl

/-- One pair's contribution at point t, at (q, b): the tile sum of row 128·(t / 4) + q against tile t mod 4. -/
theorem pair_apply (c : Dev nD) (t : Fin cfg0.N) (acc : Vec Ideal S128x32 .f32) (q : Fin 128) (b : Fin 32) :
    addTile (F := Ideal) (iblk m c 0 t) (iblk m c 1 t) acc (ix2 q b)
      = acc (ix2 q b) + tileSum (Mk m c) (rowOf (t.val / 4) q.val) b (t.val % 4) := by
  rw [addTile_apply]
  unfold tileSum weight
  simp only [iblk0_apply, iblk1_apply]

/-- The accumulator after position n, at (q, b). -/
theorem accAt_apply (c : Dev nD) : ∀ (n : ℕ) (h : n < cfg0.N) (q : Fin 128) (b : Fin 32),
    accAt m c n h (ix2 q b) = psum (Mk m c) (rowOf (n / 4) q.val) b (n % 4)
  | 0, h, q, b => by
    unfold accAt
    rw [pair_apply m c ⟨0, h⟩, zeroAcc_apply]
    rfl
  | n + 1, h, q, b => by
    unfold accAt
    by_cases h0 : (n + 1) % 4 = 0
    · rw [if_pos h0, pair_apply m c ⟨n + 1, h⟩, zeroAcc_apply]
      show Z + tileSum _ _ b ((n + 1) % 4) = psum _ _ b ((n + 1) % 4)
      rw [h0]; rfl
    · rw [if_neg h0, pair_apply m c ⟨n + 1, h⟩, accAt_apply c n (Nat.lt_of_succ_lt h) q b]
      obtain ⟨j, hj⟩ : ∃ j, (n + 1) % 4 = j + 1 := ⟨(n + 1) % 4 - 1, by omega⟩
      have hn4 : n % 4 = j := by omega
      have hd : n / 4 = (n + 1) / 4 := by omega
      show psum _ (rowOf (n / 4) q.val) b (n % 4) + tileSum _ (rowOf ((n + 1) / 4) q.val) b ((n + 1) % 4) = psum _ (rowOf ((n + 1) / 4) q.val) b ((n + 1) % 4)
      rw [hj, hn4, hd]
      rfl

end Cert.KernelIdeal.Hand

end
-- ==== Proof.KI.Final.lean ====
/-
  The output array after the run. The write-back at a point with key coordinate 3 writes block t / 4 of the array
  whose entry at (Q, b) is the four tile sums of row Q added one after the other onto the zero word; the four
  write-backs (points 3, 7, 11, 15) cover the 512 rows, so the array ends holding that function of M.
-/
import proofs.«152030_j712964571446_2_alg».proof.Proof.KI.Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.PairSpec

variable (m : (ℓ : Loc nD τ sig) → Buf (Elt Ideal) ℓ)

/-- What the point t with key coordinate 3 writes back is block t / 4 of `Gk` of M. -/
theorem flushed_eq (c : Dev nD) (t : Fin cfg0.N) (hf : (cfg0.win 2).flush t = true) :
    (dats m 0 c).flushed 2 t = ((cfg0.win 2).blk t).view.read (Elt Ideal) (Gk (Mk m c)) := by
  have h3 : t.val % 4 = 3 := (flush0_2 t).mp hf
  obtain ⟨-, -, -, -, -, -, e0, e1⟩ := idx_facts t
  have hN : cfg0.N = 16 := N_0
  show (cfg0.win 2).cut (grid0.coords t) ((dats m 0 c).after 2 t) = _
  rw [after2, state_out m c t h3]
  funext j
  obtain ⟨q, b, rfl⟩ : ∃ (q : Fin 128) (b : Fin 32), j = ix2 q b := ⟨j 0, j 1, eq_ix2 j⟩
  show accAt m c t.val t.isLt (ix2 q b) = Gk (Mk m c) (((cfg0.win 2).blk t).view.emb (ix2 q b))
  rw [accAt_apply, h3]
  unfold Gk
  have hQ : (⟨((((cfg0.win 2).blk t).view.emb (ix2 q b)) 0).val, idx2_lt0 _⟩ : Fin 512) = rowOf (t.val / 4) q.val :=
    Fin.ext (by
      show win0_2.index t (0 : Fin 2) * 128 + 1 * q.val = (128 * (t.val / 4) + q.val) % 512
      have := t.isLt; have := q.isLt; omega)
  have hb : (⟨((((cfg0.win 2).blk t).view.emb (ix2 q b)) 1).val, idx2_lt1 _⟩ : Fin 32) = b :=
    Fin.ext (by
      show win0_2.index t (1 : Fin 2) * 32 + 1 * b.val = b.val
      omega)
  exact (congrArg₂ (fun Q b' => psum (Mk m c) Q b' 3) hQ hb).symm

/-- Every row of the output array lies in the block some write-back writes. -/
theorem cover (c : Dev nD) (i : S512x32.Idx) :
    ∃ t : Fin cfg0.N, (cfg0.win 2).flush t = true ∧ i ∈ ((cfg0.win 2).blk t).view.set := by
  have hN : cfg0.N = 16 := N_0
  have hi0 : (i 0).val < 512 := idx2_lt0 i
  have hi1 : (i 1).val < 32 := idx2_lt1 i
  have ht : 4 * ((i 0).val / 128) + 3 < cfg0.N := by omega
  obtain ⟨-, -, -, -, -, -, e0, e1⟩ := idx_facts ⟨4 * ((i 0).val / 128) + 3, ht⟩
  refine ⟨⟨4 * ((i 0).val / 128) + 3, ht⟩, (flush0_2 _).mpr (by show (4 * ((i 0).val / 128) + 3) % 4 = 3; omega), ?_⟩
  show i ∈ ((View.whole main_v12).slice (win0_2.rect ⟨4 * ((i 0).val / 128) + 3, ht⟩)).set
  rw [View.set_slice_whole, Rect.mem_set_unit]
  intro a
  match a with
  | ⟨0, _⟩ =>
    show win0_2.index ⟨4 * ((i 0).val / 128) + 3, ht⟩ (0 : Fin 2) * 128 ≤ (i 0).val ∧ (i 0).val < win0_2.index ⟨4 * ((i 0).val / 128) + 3, ht⟩ (0 : Fin 2) * 128 + 128
    rw [e0]; show (4 * ((i 0).val / 128) + 3) / 4 * 128 ≤ (i 0).val ∧ (i 0).val < (4 * ((i 0).val / 128) + 3) / 4 * 128 + 128; omega
  | ⟨1, _⟩ =>
    show win0_2.index ⟨4 * ((i 0).val / 128) + 3, ht⟩ (1 : Fin 2) * 32 ≤ (i 1).val ∧ (i 1).val < win0_2.index ⟨4 * ((i 0).val / 128) + 3, ht⟩ (1 : Fin 2) * 32 + 32
    rw [e1]; omega

/-- The output array ends holding `Gk` of M. -/
theorem final (c : Dev nD) : (dats m 0 c).arrAt 2 cfg0.N = Gk (Mk m c) :=
  (dats m 0 c).arrAt_eq_of_cover 2 (Gk (Mk m c)) (fun t hf => flushed_eq m c t hf) (cover c)

end Cert.KernelIdeal.Hand

end
-- ==== Proof.RefValue.lean ====
/-
  The reference's pairwise stage is the specification's function of M. The reference broadcasts M against its
  transpose into a [512, 32, 16, 512] difference, sums its absolute value over the channel axis, negates,
  exponentiates and sums over the last axis: at (Q, b) that is the zero word plus the sum over all 512 rows r of exp of
  minus (the zero word plus the sum over the channels of |M(Q, b, c) - M(r, b, c)|).
-/
import proofs.«152030_j712964571446_2_alg».proof.Proof.Gen.ReferenceIdeal.Read
import proofs.«152030_j712964571446_2_alg».proof.Proof.Spec

noncomputable section

namespace Cert.ReferenceIdeal.RefValue

open Cert.ReferenceIdeal Cert.ReferenceIdeal.Read Cert.PairSpec
open Idealize.ShloMosaic Idealize.ShloMosaic.ValueIdx

/-- The reference's summed weights are `G` of its M. -/
theorem out_eq (x0 : (⟨S512x20, .f32⟩ : BufTy).Contents (Elt Ideal)) (x1 : (⟨S20x128, .f32⟩ : BufTy).Contents (Elt Ideal)) (x2 : (⟨S128, .f32⟩ : BufTy).Contents (Elt Ideal)) (x3 : (⟨S128x20, .f32⟩ : BufTy).Contents (Elt Ideal)) (x4 : (⟨S20, .f32⟩ : BufTy).Contents (Elt Ideal)) (x5 : (⟨S20x512, .f32⟩ : BufTy).Contents (Elt Ideal)) :
    val_main_v22 (F := Ideal) x0 x1 x2 x3 x4 x5 = G (val_main_v11 (F := Ideal) x0 x1 x2 x3 x4 x5) := by
  funext i
  obtain ⟨Q, b, rfl⟩ : ∃ (Q : Fin 512) (b : Fin 32), i = ix2 Q b := ⟨i 0, i 1, eq_ix2 i⟩
  rw [val_main_v22_apply]
  show Z + _ = gAt _ Q b
  unfold gAt
  refine congrArg (Z + ·) (Finset.sum_congr rfl fun r _ => ?_)
  rw [val_main_v21_apply, val_main_v20_apply, val_main_v19_apply]
  show Ideal.exp (-(Z + ∑ c : Fin 16, _)) = _
  refine congrArg (fun s => Ideal.exp (-(Z + s))) (Finset.sum_congr rfl fun ch _ => ?_)
  rw [val_main_v18_apply, val_main_v17_apply, val_main_v15_apply, val_main_v16_apply, val_main_v12_apply, val_main_v14_apply, val_main_v13_apply]
  have e1 : idx_main_v12 (idx_main_v15 (idx_main_v19 (idx_main_v22 (ix2 Q b) r) ch)) = ix3 Q b ch :=
    funext fun a => Fin.ext (by match a with | ⟨0, _⟩ => rfl | ⟨1, _⟩ => rfl | ⟨2, _⟩ => rfl)
  have e2 : idx_main_v13 (idx_main_v14 (idx_main_v16 (idx_main_v19 (idx_main_v22 (ix2 Q b) r) ch))) = ix3 r b ch :=
    funext fun a => Fin.ext (by match a with | ⟨0, _⟩ => rfl | ⟨1, _⟩ => rfl | ⟨2, _⟩ => rfl)
  rw [e1, e2]
  rfl

end Cert.ReferenceIdeal.RefValue

end
-- ==== Proof.Bridge.lean ====
/-
  The two programs compute one function of their arguments. Before the region both run the same host lines, so the
  array M the kernel reads, and the hidden layer that is later concatenated, are the reference's stages of the same
  arguments; the kernel's output array is the specification's function of M in the tiled spelling, the reference's
  pairwise stage the same function in the untiled spelling, and these agree on the extended reals; after the region
  both run the same host lines on it.
-/
import proofs.«152030_j712964571446_2_alg».proof.Proof.KI.Final
import proofs.«152030_j712964571446_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.PairSpec Cert.ReferenceIdeal.Read

variable (m : (ℓ : Loc nD τ sig) → Buf (Elt Ideal) ℓ)

set_option maxHeartbeats 1000000 in
/-- M as the region finds it is the reference's reshaped projection of the same arguments. -/
theorem M_eq (c : Dev nD) :
    V m c main_v11 = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  conv_lhs =>
    dsimp only [V, V0, prefixOps]
    simp only [hostOps0, hostOps0_1, hostOps0_2, hostOps0_3, hostOps0_4, List.flatten_cons, List.flatten_nil, List.append_nil, List.cons_append, List.nil_append]
  after_results
  unfold val_main_v11 val_main_v10 val_main_v9 val_main_call1_v0 val_main_call1_cst val_main_v8 val_main_v7 val_main_v6 val_main_v5 val_main_v4 val_main_call0_v0 val_main_call0_cst val_main_v3 val_main_v2 val_main_v1 val_main_v0
  rfl

set_option maxHeartbeats 1000000 in
/-- The hidden layer as the region finds it is the reference's. -/
theorem h2_eq (c : Dev nD) :
    V m c main_v9 = val_main_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  conv_lhs =>
    dsimp only [V, V0, prefixOps]
    simp only [hostOps0, hostOps0_1, hostOps0_2, hostOps0_3, hostOps0_4, List.flatten_cons, List.flatten_nil, List.append_nil, List.cons_append, List.nil_append]
  after_results
  unfold val_main_v9 val_main_call1_v0 val_main_call1_cst val_main_v8 val_main_v7 val_main_v6 val_main_v5 val_main_v4 val_main_call0_v0 val_main_call0_cst val_main_v3 val_main_v2 val_main_v1 val_main_v0
  rfl

set_option maxHeartbeats 1000000 in
/-- The kernel program's result is the reference's last stage of the same arguments. -/
theorem result_eq (c : Dev nD) :
    endR m c main_v27 = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  conv_lhs =>
    dsimp only [endR, endV]
    simp only [hostOps1, List.flatten_cons, List.flatten_nil, List.append_nil]
  after_results
  rw [exitV_out, exitV_of_ne m c main_v9 (by decide), exitV_of_ne m c main_arg6 (by decide), exitV_of_ne m c main_arg7 (by decide),
    V_arg6, V_arg7, final, Gk_eq_G]
  dsimp only [Mk]
  rw [M_eq, h2_eq, ← Cert.ReferenceIdeal.RefValue.out_eq]
  unfold val_main_v37 val_main_v36 val_main_v35 val_main_v34 val_main_v33 val_main_v32 val_main_v31 val_main_v30 val_main_v29 val_main_v28 val_main_v27 val_main_v26 val_main_v25 val_main_v24 val_main_v23 val_main_cst_1 val_main_cst_2 val_main_cst_3 val_main_cst_4
  rfl

end Cert.KernelIdeal.Hand

end
-- ==== Proof.lean ====
/-
  The certificate of the discriminator with its pairwise L1-exp stage as a tiled kernel, against the plain reference.

  Both programs compute, from the same arguments, a two-layer perceptron h, its projection M = (h · T) reshaped to
  512 rows × 32 heads × 16 channels, the minibatch feature o(Q, b) = Σ_r exp(−Σ_c |M(Q, b, c) − M(r, b, c)|) over all
  512 rows r, its mean-centring, and a sigmoid head on the concatenation of h and o. They differ only in the feature:
  the kernel walks a 4 × 4 grid of (query tile, key tile) pairs of 128 rows, adds the sixteen channel terms one after
  the other onto a zero, negates by subtracting from zero, sums over the 128 key rows, and accumulates the four tile
  sums of a query tile in a buffer it resets at the first key tile and copies out at the last; the reference takes
  each sum at once over the broadcast difference. Over the extended reals addition is commutative and associative with
  0 neutral and 0 − x = −x, so the two features are one function of M whatever M holds; nothing here needs the inputs
  finite. The ideal pass rewrote nothing, so the idealized kernel is the kernel's own text.

  The frames: the kernel's program is run by the pipeline rule with the array M, which feeds both input windows,
  held in two halves; the body's triple is proved once per position of the key coordinate (first, middle, last);
  the reference's run is its host lines one after the other.
-/
import proofs.«152030_j712964571446_2_alg».proof.Defs
import proofs.«152030_j712964571446_2_alg».proof.Proof.Gen.Kernel
import proofs.«152030_j712964571446_2_alg».proof.Proof.Gen.Kernel.Skeleton
import proofs.«152030_j712964571446_2_alg».proof.Proof.Gen.Kernel.Launch
import proofs.«152030_j712964571446_2_alg».proof.Proof.Gen.Kernel.Points
import proofs.«152030_j712964571446_2_alg».proof.Proof.Gen.KernelIdeal
import proofs.«152030_j712964571446_2_alg».proof.Proof.Gen.KernelIdeal.Skeleton
import proofs.«152030_j712964571446_2_alg».proof.Proof.Gen.KernelIdeal.Launch
import proofs.«152030_j712964571446_2_alg».proof.Proof.Gen.KernelIdeal.Points
import proofs.«152030_j712964571446_2_alg».proof.Proof.Gen.ReferenceIdeal
import proofs.«152030_j712964571446_2_alg».proof.Proof.Gen.ReferenceIdeal.Run
import proofs.«152030_j712964571446_2_alg».proof.Proof.Gen.ReferenceIdeal.Read
import proofs.«152030_j712964571446_2_alg».proof.Proof.Gen.Pre_finite_inputs
import proofs.«152030_j712964571446_2_alg».proof.Proof.K.Frame
import proofs.«152030_j712964571446_2_alg».proof.Proof.KI.Frame
import proofs.«152030_j712964571446_2_alg».proof.Proof.Bridge
import Idealize.ShloMosaic.Adequacy
import Idealize.ShloMosaic.Init

noncomputable section

namespace Cert.Proof

open Idealize.ShloMosaic Idealize.SL.Sem

/-- The word-level kernel program runs to the end and leaves its arguments as they were. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result: the kernel program's
    result buffer holds the reference's last stage of the arguments (`result_eq`). -/
theorem algebraic : Cert.algebraic_KernelIdeal_ReferenceIdeal := by
  intro m ρ m' ρ' _ hagree
  refine ⟨fun c => Cert.KernelIdeal.Hand.endR m c Cert.KernelIdeal.main_v27, ?_, ?_⟩
  · exact (θ_run Cert.KernelIdeal.defs _ _).mono (fun r h c =>
      ⟨(h c).2 Cert.KernelIdeal.main_v27 (by decide),
       ((h c).2 Cert.KernelIdeal.main_arg0 (by decide)).trans (Cert.KernelIdeal.Hand.endR_arg0 m c),
       ((h c).2 Cert.KernelIdeal.main_arg1 (by decide)).trans (Cert.KernelIdeal.Hand.endR_arg1 m c),
       ((h c).2 Cert.KernelIdeal.main_arg2 (by decide)).trans (Cert.KernelIdeal.Hand.endR_arg2 m c),
       ((h c).2 Cert.KernelIdeal.main_arg3 (by decide)).trans (Cert.KernelIdeal.Hand.endR_arg3 m c),
       ((h c).2 Cert.KernelIdeal.main_arg4 (by decide)).trans (Cert.KernelIdeal.Hand.endR_arg4 m c),
       ((h c).2 Cert.KernelIdeal.main_arg5 (by decide)).trans (Cert.KernelIdeal.Hand.endR_arg5 m c),
       ((h c).2 Cert.KernelIdeal.main_arg6 (by decide)).trans (Cert.KernelIdeal.Hand.endR_arg6 m c),
       ((h c).2 Cert.KernelIdeal.main_arg7 (by decide)).trans (Cert.KernelIdeal.Hand.endR_arg7 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
